-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x1 : Shape := ⟨2, ![160000, 1]⟩
abbrev S5120000 : Shape := ⟨1, ![5120000]⟩
abbrev S16x1 : Shape := ⟨2, ![16, 1]⟩
abbrev S16 : Shape := ⟨1, ![16]⟩
abbrev S1x16 : Shape := ⟨2, ![1, 16]⟩
abbrev S1 : Shape := ⟨1, ![1]⟩
abbrev S4000x20000 : Shape := ⟨2, ![4000, 20000]⟩
abbrev S4000 : Shape := ⟨1, ![4000]⟩
abbrev S800x4000 : Shape := ⟨2, ![800, 4000]⟩
abbrev S800 : Shape := ⟨1, ![800]⟩
abbrev S160x800 : Shape := ⟨2, ![160, 800]⟩
abbrev S160 : Shape := ⟨1, ![160]⟩
abbrev S10x160 : Shape := ⟨2, ![10, 160]⟩
abbrev S10 : Shape := ⟨1, ![10]⟩
abbrev S2x5120000 : Shape := ⟨2, ![2, 5120000]⟩
abbrev S160000 : Shape := ⟨1, ![160000]⟩
abbrev S_ : Shape := ⟨0, ![]⟩

class Facts : Prop where
  bcast_S_S160000x1 : S_.BroadcastsInDim S160000x1 (![] : Fin 0 → Fin S160000x1.rank)
  reducesTo_S160000x1_S_d0_1 : S160000x1.ReducesTo [0, 1] S_
  h_S_ : 0 < S_.numel
  bcast_S_S5120000 : S_.BroadcastsInDim S5120000 (![] : Fin 0 → Fin S5120000.rank)
  reducesTo_S5120000_S_d0 : S5120000.ReducesTo [0] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S4000x20000 : S_.BroadcastsInDim S4000x20000 (![] : Fin 0 → Fin S4000x20000.rank)
  reducesTo_S4000x20000_S_d0_1 : S4000x20000.ReducesTo [0, 1] S_
  bcast_S_S4000 : S_.BroadcastsInDim S4000 (![] : Fin 0 → Fin S4000.rank)
  reducesTo_S4000_S_d0 : S4000.ReducesTo [0] S_
  bcast_S_S800x4000 : S_.BroadcastsInDim S800x4000 (![] : Fin 0 → Fin S800x4000.rank)
  reducesTo_S800x4000_S_d0_1 : S800x4000.ReducesTo [0, 1] S_
  bcast_S_S800 : S_.BroadcastsInDim S800 (![] : Fin 0 → Fin S800.rank)
  reducesTo_S800_S_d0 : S800.ReducesTo [0] S_
  bcast_S_S160x800 : S_.BroadcastsInDim S160x800 (![] : Fin 0 → Fin S160x800.rank)
  reducesTo_S160x800_S_d0_1 : S160x800.ReducesTo [0, 1] S_
  bcast_S_S160 : S_.BroadcastsInDim S160 (![] : Fin 0 → Fin S160.rank)
  reducesTo_S160_S_d0 : S160.ReducesTo [0] S_
  bcast_S_S10x160 : S_.BroadcastsInDim S10x160 (![] : Fin 0 → Fin S10x160.rank)
  reducesTo_S10x160_S_d0_1 : S10x160.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10x160 .f32) (main_arg15 : FVec F S10 .f32) (main_v63 : IVec S_ 1) (main_v67 : IVec S_ 1) : IVec S_ 1 :=
  let main_v68 : IVec S_ 1 := andi main_v63 main_v67
  let main_v69 : FVec F S10x160 .f32 := Host.absf main_arg14
  let main_cst_26 : FVec F S_ .f32 := constant S_ .f32 0x7F800000#32
  let main_v70 : FVec F S10x160 .f32 := broadcastInDim S10x160 ![] bcast_S_S10x160 main_cst_26
  let main_v71 : IVec S10x160 1 := cmpf .olt main_v69 main_v70
  let main_c_27 : IVec S_ 1 := constantI S_ 1 1#1
  let main_v72 : IVec S_ 1 := (fun x v => Host.reduce IntOp.andi x v reducesTo_S10x160_S_d0_1 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg11 : FVec F S800 .f32) (main_arg12 : FVec F S160x800 .f32) (main_arg13 : FVec F S160 .f32) (main_arg14 : FVec F S10x160 .f32) (main_arg15 : FVec F S10 .f32) (main_v48 : IVec S_ 1) (main_v49 : FVec F S800x4000 .f32) (main_v50 : FVec F S800x4000 .f32) : IVec S_ 1 :=
  let main_v51 : IVec S800x4000 1 := cmpf .olt main_v49 main_v50
  let main_c_19 : IVec S_ 1 := constantI S_ 1 1#1
  let main_v52 : IVec S_ 1 := (fun x v => Host.reduce IntOp.andi x v reducesTo_S800x4000_S_d0_1 h_S_) main_v51 main_c_19
  let main_v53 : IVec S_ 1 := andi main_v48 main_v52
  let main_v54 : FVec F S800 .f32 := Host.absf main_arg11
  let main_cst_20 : FVec F S_ .f32 := constant S_ .f32 0x7F800000#32
  let main_v55 : FVec F S800 .f32 := broadcastInDim S800 ![] bcast_S_S800 main_cst_20
  let main_v56 : IVec S800 1 := cmpf .olt main_v54 main_v55
  let main_c_21 : IVec S_ 1 := constantI S_ 1 1#1
  let main_v57 : IVec S_ 1 := (fun x v => Host.reduce IntOp.andi x v reducesTo_S800_S_d0 h_S_) main_v56 main_c_21
  let main_v58 : IVec S_ 1 := andi main_v53 main_v57
  let main_v59 : FVec F S160x800 .f32 := Host.absf main_arg12
  let main_cst_22 : FVec F S_ .f32 := constant S_ .f32 0x7F800000#32
  let main_v60 : FVec F S160x800 .f32 := broadcastInDim S160x800 ![] bcast_S_S160x800 main_cst_22
  let main_v61 : IVec S160x800 1 := cmpf .olt main_v59 main_v60
  let main_c_23 : IVec S_ 1 := constantI S_ 1 1#1
  let main_v62 : IVec S_ 1 := (fun x v => Host.reduce IntOp.andi x v reducesTo_S160x800_S_d0_1 h_S_) main_v61 main_c_23
  let main_v63 : IVec S_ 1 := andi main_v58 main_v62
  let main_v64 : FVec F S160 .f32 := Host.absf main_arg13
  let main_cst_24 : FVec F S_ .f32 := constant S_ .f32 0x7F800000#32
  let main_v65 : FVec F S160 .f32 := broadcastInDim S160 ![] bcast_S_S160 main_cst_24
  let main_v66 : IVec S160 1 := cmpf .olt main_v64 main_v65
  let main_c_25 : IVec S_ 1 := constantI S_ 1 1#1
  let main_v67 : IVec S_ 1 := (fun x v => Host.reduce IntOp.andi x v reducesTo_S160_S_d0 h_S_) main_v66 main_c_25
  fn_part4 (F := F) main_arg14 main_arg15 main_v63 main_v67

def fn_part2 {F : FTy → Type} [FloatOps F] (main_arg7 : FVec F S1x16 .f32) (main_arg8 : FVec F S4000x20000 .f32) (main_arg9 : FVec F S4000 .f32) (main_arg10 : FVec F S800x4000 .f32) (main_arg11 : FVec F S800 .f32) (main_arg12 : FVec F S160x800 .f32) (main_arg13 : FVec F S160 .f32) (main_arg14 : FVec F S10x160 .f32) (main_arg15 : FVec F S10 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S4000x20000 .f32 := Host.absf main_arg8
  let main_cst_14 : FVec F S_ .f32 := constant S_ .f32 0x7F800000#32
  let main_v40 : FVec F S4000x20000 .f32 := broadcastInDim S4000x20000 ![] bcast_S_S4000x20000 main_cst_14
  let main_v41 : IVec S4000x20000 1 := cmpf .olt main_v39 main_v40
  let main_c_15 : IVec S_ 1 := constantI S_ 1 1#1
  let main_v42 : IVec S_ 1 := (fun x v => Host.reduce IntOp.andi x v reducesTo_S4000x20000_S_d0_1 h_S_) main_v41 main_c_15
  let main_v43 : IVec S_ 1 := andi main_v38 main_v42
  let main_v44 : FVec F S4000 .f32 := Host.absf main_arg9
  let main_cst_16 : FVec F S_ .f32 := constant S_ .f32 0x7F800000#32
  let main_v45 : FVec F S4000 .f32 := broadcastInDim S4000 ![] bcast_S_S4000 main_cst_16
  let main_v46 : IVec S4000 1 := cmpf .olt main_v44 main_v45
  let main_c_17 : IVec S_ 1 := constantI S_ 1 1#1
  let main_v47 : IVec S_ 1 := (fun x v => Host.reduce IntOp.andi x v reducesTo_S4000_S_d0 h_S_) main_v46 main_c_17
  let main_v48 : IVec S_ 1 := andi main_v43 main_v47
  let main_v49 : FVec F S800x4000 .f32 := Host.absf main_arg10
  let main_cst_18 : FVec F S_ .f32 := constant S_ .f32 0x7F800000#32
  let main_v50 : FVec F S800x4000 .f32 := broadcastInDim S800x4000 ![] bcast_S_S800x4000 main_cst_18
  fn_part3 (F := F) main_arg11 main_arg12 main_arg13 main_arg14 main_arg15 main_v48 main_v49 main_v50

def fn_part1 {F : FTy → Type} [FloatOps F] (main_arg4 : FVec F S16x1 .f32) (main_arg5 : FVec F S1x16 .f32) (main_arg6 : FVec F S1 .f32) (main_arg7 : FVec F S1x16 .f32) (main_arg8 : FVec F S4000x20000 .f32) (main_arg9 : FVec F S4000 .f32) (main_arg10 : FVec F S800x4000 .f32) (main_arg11 : FVec F S800 .f32) (main_arg12 : FVec F S160x800 .f32) (main_arg13 : FVec F S160 .f32) (main_arg14 : FVec F S10x160 .f32) (main_arg15 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg4
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S160000x1 .f32) (main_arg1 : FVec F S5120000 .f32) (main_arg2 : FVec F S16x1 .f32) (main_arg3 : FVec F S16 .f32) (main_arg4 : FVec F S16x1 .f32) (main_arg5 : FVec F S1x16 .f32) (main_arg6 : FVec F S1 .f32) (main_arg7 : FVec F S1x16 .f32) (main_arg8 : FVec F S4000x20000 .f32) (main_arg9 : FVec F S4000 .f32) (main_arg10 : FVec F S800x4000 .f32) (main_arg11 : FVec F S800 .f32) (main_arg12 : FVec F S160x800 .f32) (main_arg13 : FVec F S160 .f32) (main_arg14 : FVec F S10x160 .f32) (main_arg15 : FVec F S10 .f32) (main_arg16 : IVec S2x5120000 32) (main_arg17 : IVec S160000 32) : IVec S_ 1 :=
  let main_v0 : FVec F S160000x1 .f32 := Host.absf main_arg0
  let main_cst : FVec F S_ .f32 := constant S_ .f32 0x7F800000#32
  let main_v1 : FVec F S160000x1 .f32 := broadcastInDim S160000x1 ![] bcast_S_S160000x1 main_cst
  let main_v2 : IVec S160000x1 1 := cmpf .olt main_v0 main_v1
  let main_c : IVec S_ 1 := constantI S_ 1 1#1
  let main_v3 : IVec S_ 1 := (fun x v => Host.reduce IntOp.andi x v reducesTo_S160000x1_S_d0_1 h_S_) main_v2 main_c
  let main_v4 : FVec F S5120000 .f32 := Host.absf main_arg1
  let main_cst_0 : FVec F S_ .f32 := constant S_ .f32 0x7F800000#32
  let main_v5 : FVec F S5120000 .f32 := broadcastInDim S5120000 ![] bcast_S_S5120000 main_cst_0
  let main_v6 : IVec S5120000 1 := cmpf .olt main_v4 main_v5
  let main_c_1 : IVec S_ 1 := constantI S_ 1 1#1
  let main_v7 : IVec S_ 1 := (fun x v => Host.reduce IntOp.andi x v reducesTo_S5120000_S_d0 h_S_) main_v6 main_c_1
  let main_v8 : IVec S_ 1 := andi main_v3 main_v7
  let main_v9 : FVec F S16x1 .f32 := Host.absf main_arg2
  let main_cst_2 : FVec F S_ .f32 := constant S_ .f32 0x7F800000#32
  let main_v10 : FVec F S16x1 .f32 := broadcastInDim S16x1 ![] bcast_S_S16x1 main_cst_2
  let main_v11 : IVec S16x1 1 := cmpf .olt main_v9 main_v10
  let main_c_3 : IVec S_ 1 := constantI S_ 1 1#1
  let main_v12 : IVec S_ 1 := (fun x v => Host.reduce IntOp.andi x v reducesTo_S16x1_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S160000x1 : Shape := ⟨2, ![160000, 1]⟩
abbrev S5120000 : Shape := ⟨1, ![5120000]⟩
abbrev S16x1 : Shape := ⟨2, ![16, 1]⟩
abbrev S16 : Shape := ⟨1, ![16]⟩
abbrev S1x16 : Shape := ⟨2, ![1, 16]⟩
abbrev S1 : Shape := ⟨1, ![1]⟩
abbrev S4000x20000 : Shape := ⟨2, ![4000, 20000]⟩
abbrev S4000 : Shape := ⟨1, ![4000]⟩
abbrev S800x4000 : Shape := ⟨2, ![800, 4000]⟩
abbrev S800 : Shape := ⟨1, ![800]⟩
abbrev S160x800 : Shape := ⟨2, ![160, 800]⟩
abbrev S160 : Shape := ⟨1, ![160]⟩
abbrev S10x160 : Shape := ⟨2, ![10, 160]⟩
abbrev S10 : Shape := ⟨1, ![10]⟩
abbrev S2x5120000 : Shape := ⟨2, ![2, 5120000]⟩
abbrev S160000 : Shape := ⟨1, ![160000]⟩
abbrev S1x5120000 : Shape := ⟨2, ![1, 5120000]⟩
abbrev S_ : Shape := ⟨0, ![]⟩
abbrev S5120000x1 : Shape := ⟨2, ![5120000, 1]⟩
abbrev S160000x16 : Shape := ⟨2, ![160000, 16]⟩
abbrev S2000x1 : Shape := ⟨2, ![2000, 1]⟩
abbrev S2000x16 : Shape := ⟨2, ![2000, 16]⟩
abbrev S5120000x16 : Shape := ⟨2, ![5120000, 16]⟩
abbrev S1x1 : Shape := ⟨2, ![1, 1]⟩
abbrev S8x20000 : Shape := ⟨2, ![8, 20000]⟩
abbrev S20000x8 : Shape := ⟨2, ![20000, 8]⟩
abbrev S4000x1 : Shape := ⟨2, ![4000, 1]⟩
abbrev S4000x8 : Shape := ⟨2, ![4000, 8]⟩
abbrev S40x20000 : Shape := ⟨2, ![40, 20000]⟩
abbrev S40x1 : Shape := ⟨2, ![40, 1]⟩
abbrev S40x8 : Shape := ⟨2, ![40, 8]⟩
abbrev S8x4000 : Shape := ⟨2, ![8, 4000]⟩
abbrev S1x800 : Shape := ⟨2, ![1, 800]⟩
abbrev S1x160 : Shape := ⟨2, ![1, 160]⟩
abbrev S1x10 : Shape := ⟨2, ![1, 10]⟩
abbrev S8x10 : Shape := ⟨2, ![8, 10]⟩
abbrev S4000x800 : Shape := ⟨2, ![4000, 800]⟩
abbrev S8x800 : Shape := ⟨2, ![8, 800]⟩
abbrev S800x160 : Shape := ⟨2, ![800, 160]⟩
abbrev S8x160 : Shape := ⟨2, ![8, 160]⟩
abbrev S160x10 : Shape := ⟨2, ![160, 10]⟩
abbrev S8 : Shape := ⟨1, ![8]⟩
abbrev S8x1 : Shape := ⟨2, ![8, 1]⟩

abbrev nBuf : Space → Nat
  | .hbm => 66
  | .vmem => 33
  | .smem => 0
  | _ => 0

abbrev bufTy : (tb : Table) → Fin (tcTables nBuf tb) → BufTy
  | .hbm, ⟨0, _⟩ => ⟨S160000x1, .f32⟩
  | .hbm, ⟨1, _⟩ => ⟨S5120000, .f32⟩
  | .hbm, ⟨2, _⟩ => ⟨S16x1, .f32⟩
  | .hbm, ⟨3, _⟩ => ⟨S16, .f32⟩
  | .hbm, ⟨4, _⟩ => ⟨S16x1, .f32⟩
  | .hbm, ⟨5, _⟩ => ⟨S1x16, .f32⟩
  | .hbm, ⟨6, _⟩ => ⟨S1, .f32⟩
  | .hbm, ⟨7, _⟩ => ⟨S1x16, .f32⟩
  | .hbm, ⟨8, _⟩ => ⟨S4000x20000, .f32⟩
  | .hbm, ⟨9, _⟩ => ⟨S4000, .f32⟩
  | .hbm, ⟨10, _⟩ => ⟨S800x4000, .f32⟩
  | .hbm, ⟨11, _⟩ => ⟨S800, .f32⟩
  | .hbm, ⟨12, _⟩ => ⟨S160x800, .f32⟩
  | .hbm, ⟨13, _⟩ => ⟨S160, .f32⟩
  | .hbm, ⟨14, _⟩ => ⟨S10x160, .f32⟩
  | .hbm, ⟨15, _⟩ => ⟨S10, .f32⟩
  | .hbm, ⟨16, _⟩ => ⟨S2x5120000, .i32⟩
  | .hbm, ⟨17, _⟩ => ⟨S160000, .i32⟩
  | .hbm, ⟨18, _⟩ => ⟨S1x5120000, .i32⟩
  | .hbm, ⟨19, _⟩ => ⟨S5120000, .i32⟩
  | .hbm, ⟨20, _⟩ => ⟨S1x5120000, .i32⟩
  | .hbm, ⟨21, _⟩ => ⟨S5120000, .i32⟩
  | .hbm, ⟨22, _⟩ => ⟨S_, .i32⟩
  | .hbm, ⟨23, _⟩ => ⟨S5120000, .i32⟩
  | .hbm, ⟨24, _⟩ => ⟨S5120000, .i1⟩
  | .hbm, ⟨25, _⟩ => ⟨S_, .i32⟩
  | .hbm, ⟨26, _⟩ => ⟨S5120000, .i32⟩
  | .hbm, ⟨27, _⟩ => ⟨S5120000, .i32⟩
  | .hbm, ⟨28, _⟩ => ⟨S5120000, .i32⟩
  | .hbm, ⟨29, _⟩ => ⟨S5120000x1, .i32⟩
  | .hbm, ⟨30, _⟩ => ⟨S5120000x1, .f32⟩
  | .hbm, ⟨31, _⟩ => ⟨S5120000x1, .f32⟩
  | .hbm, ⟨32, _⟩ => ⟨S5120000x1, .f32⟩
  | .hbm, ⟨33, _⟩ => ⟨S_, .f32⟩
  | .hbm, ⟨34, _⟩ => ⟨S160000x1, .f32⟩
  | .hbm, ⟨35, _⟩ => ⟨S5120000x1, .i32⟩
  | .hbm, ⟨36, _⟩ => ⟨S160000x1, .f32⟩
  | .hbm, ⟨37, _⟩ => ⟨S1x16, .f32⟩
  | .hbm, ⟨38, _⟩ => ⟨S160000x16, .f32⟩
  | .hbm, ⟨39, _⟩ => ⟨S_, .i32⟩
  | .hbm, ⟨40, _⟩ => ⟨S5120000, .i32⟩
  | .hbm, ⟨41, _⟩ => ⟨S5120000, .i1⟩
  | .hbm, ⟨42, _⟩ => ⟨S_, .i32⟩
  | .hbm, ⟨43, _⟩ => ⟨S5120000, .i32⟩
  | .hbm, ⟨44, _⟩ => ⟨S5120000, .i32⟩
  | .hbm, ⟨45, _⟩ => ⟨S5120000, .i32⟩
  | .hbm, ⟨46, _⟩ => ⟨S5120000x1, .i32⟩
  | .hbm, ⟨47, _⟩ => ⟨S5120000x16, .f32⟩
  | .hbm, ⟨48, _⟩ => ⟨S5120000x1, .f32⟩
  | .hbm, ⟨49, _⟩ => ⟨S5120000x16, .f32⟩
  | .hbm, ⟨50, _⟩ => ⟨S5120000x16, .f32⟩
  | .hbm, ⟨51, _⟩ => ⟨S_, .f32⟩
  | .hbm, ⟨52, _⟩ => ⟨S160000x16, .f32⟩
  | .hbm, ⟨53, _⟩ => ⟨S5120000x1, .i32⟩
  | .hbm, ⟨54, _⟩ => ⟨S160000x16, .f32⟩
  | .hbm, ⟨55, _⟩ => ⟨S1x1, .f32⟩
  | .hbm, ⟨56, _⟩ => ⟨S160000x1, .f32⟩
  | .hbm, ⟨57, _⟩ => ⟨S8x20000, .f32⟩
  | .hbm, ⟨58, _⟩ => ⟨S20000x8, .f32⟩
  | .hbm, ⟨59, _⟩ => ⟨S4000x1, .f32⟩
  | .hbm, ⟨60, _⟩ => ⟨S4000x8, .f32⟩
  | .hbm, ⟨61, _⟩ => ⟨S8x4000, .f32⟩
  | .hbm, ⟨62, _⟩ => ⟨S1x800, .f32⟩
  | .hbm, ⟨63, _⟩ => ⟨S1x160, .f32⟩
  | .hbm, ⟨64, _⟩ => ⟨S1x10, .f32⟩
  | .hbm, ⟨65, _⟩ => ⟨S8x10, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S16x1, .f32⟩
  | .local _ .vmem, ⟨5, _⟩ => ⟨S1x16, .f32⟩
  | .local _ .vmem, ⟨6, _⟩ => ⟨S16x1, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S1x16, .f32⟩
  | .local _ .vmem, ⟨14, _⟩ => ⟨S1x1, .f32⟩
  | .local _ .vmem, ⟨15, _⟩ => ⟨S1x16, .f32⟩
  | .local _ .vmem, ⟨16, _⟩ => ⟨S2000x1, .f32⟩
  | .local _ .vmem, ⟨17, _⟩ => ⟨S2000x1, .f32⟩
  | .local _ .vmem, ⟨18, _⟩ => ⟨S40x20000, .f32⟩
  | .local _ .vmem, ⟨19, _⟩ => ⟨S40x20000, .f32⟩
  | .local _ .vmem, ⟨20, _⟩ => ⟨S20000x8, .f32⟩
  | .local _ .vmem, ⟨21, _⟩ => ⟨S40x1, .f32⟩
  | .local _ .vmem, ⟨22, _⟩ => ⟨S40x1, .f32⟩
  | .local _ .vmem, ⟨23, _⟩ => ⟨S40x8, .f32⟩
  | .local _ .vmem, ⟨24, _⟩ => ⟨S40x8, .f32⟩
  | .local _ .vmem, ⟨25, _⟩ => ⟨S8x4000, .f32⟩
  | .local _ .vmem, ⟨26, _⟩ => ⟨S800x4000, .f32⟩
  | .local _ .vmem, ⟨27, _⟩ => ⟨S1x800, .f32⟩
  | .local _ .vmem, ⟨28, _⟩ => ⟨S160x800, .f32⟩
  | .local _ .vmem, ⟨29, _⟩ => ⟨S1x160, .f32⟩
  | .local _ .vmem, ⟨30, _⟩ => ⟨S10x160, .f32⟩
  | .local _ .vmem, ⟨31, _⟩ => ⟨S1x10, .f32⟩
  | .local _ .vmem, ⟨32, _⟩ => ⟨S8x10, .f32⟩
  | _, _ => ⟨S160000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S40x20000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S20000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S40x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S40x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S8x4000 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S800x4000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x800 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S160x800 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x160 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S10x160 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S8x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x5120000_S1x5120000_0_0 : S2x5120000.Slices ![0, 0] S1x5120000
  shapeCasts_S1x5120000_S5120000 : S1x5120000.ShapeCasts S5120000
  slices_S2x5120000_S1x5120000_1_0 : S2x5120000.Slices ![1, 0] S1x5120000
  bcast_S_S5120000 : S_.BroadcastsInDim S5120000 (![] : Fin 0 → Fin S5120000.rank)
  bcast_S5120000_S5120000x1_0 : S5120000.BroadcastsInDim S5120000x1 (![0] : Fin 1 → Fin S5120000x1.rank)
  bcast_S_S160000x1 : S_.BroadcastsInDim S160000x1 (![] : Fin 0 → Fin S160000x1.rank)
  shapeCasts_S16_S1x16 : S16.ShapeCasts S1x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  transposes_S16x1_p1_0_S1x16 : S16x1.Transposes [1, 0] S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S5120000x1_S5120000x16_0_1 : S5120000x1.BroadcastsInDim S5120000x16 (![0, 1] : Fin 2 → Fin S5120000x16.rank)
  bcast_S_S160000x16 : S_.BroadcastsInDim S160000x16 (![] : Fin 0 → Fin S160000x16.rank)
  shapeCasts_S1_S1x1 : S1.ShapeCasts S1x1
  shapeCasts_S2000x16_S2000x16 : S2000x16.ShapeCasts S2000x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x16_p1_0_S16x1 : S1x16.Transposes [1, 0] S16x1
  broadcasts_S1x1_S2000x1 : S1x1.Broadcasts S2000x1
  shapeCasts_S160000x1_S8x20000 : S160000x1.ShapeCasts S8x20000
  transposes_S8x20000_S20000x8_1_0 : S8x20000.Transposes [1, 0] S20000x8
  shapeCasts_S4000_S4000x1 : S4000.ShapeCasts S4000x1
  inb_S40x20000_S40x20000_0_0 : ∀ a, (![0, 0] : Fin 2 → Nat) a + S40x20000.size a ≤ S40x20000.size a
  h_S40x20000 : 0 < S40x20000.numel
  inb_S20000x8_S20000x8_0_0 : ∀ a, (![0, 0] : Fin 2 → Nat) a + S20000x8.size a ≤ S20000x8.size a
  h_S20000x8 : 0 < S20000x8.numel
  shapeCasts_S20000x8_S20000x8 : S20000x8.ShapeCasts S20000x8
  inb_S40x1_S40x1_0_0 : ∀ a, (![0, 0] : Fin 2 → Nat) a + S40x1.size a ≤ S40x1.size a
  h_S40x1 : 0 < S40x1.numel
  shapeCasts_S40x1_S40x1 : S40x1.ShapeCasts S40x1
  broadcasts_S40x1_S40x8 : S40x1.Broadcasts S40x8
  inb_S40x8_S40x8_0_0 : ∀ a, (![0, 0] : Fin 2 → Nat) a + S40x8.size a ≤ S40x8.size a
  h_S40x8 : 0 < S40x8.numel
  transposes_S4000x8_S8x4000_1_0 : S4000x8.Transposes [1, 0] S8x4000
  shapeCasts_S800_S1x800 : S800.ShapeCasts S1x800
  shapeCasts_S160_S1x160 : S160.ShapeCasts S1x160
  shapeCasts_S10_S1x10 : S10.ShapeCasts S1x10
  inb_S8x4000_S8x4000_0_0 : ∀ a, (![0, 0] : Fin 2 → Nat) a + S8x4000.size a ≤ S8x4000.size a
  h_S8x4000 : 0 < S8x4000.numel
  shapeCasts_S8x4000_S8x4000 : S8x4000.ShapeCasts S8x4000
  inb_S800x4000_S800x4000_0_0 : ∀ a, (![0, 0] : Fin 2 → Nat) a + S800x4000.size a ≤ S800x4000.size a
  h_S800x4000 : 0 < S800x4000.numel
  inb_S1x800_S1x800_0_0 : ∀ a, (![0, 0] : Fin 2 → Nat) a + S1x800.size a ≤ S1x800.size a
  h_S1x800 : 0 < S1x800.numel
  shapeCasts_S1x800_S1x800 : S1x800.ShapeCasts S1x800
  transposes_S800x4000_p1_0_S4000x800 : S800x4000.Transposes [1, 0] S4000x800
  broadcasts_S1x800_S8x800 : S1x800.Broadcasts S8x800
  inb_S160x800_S160x800_0_0 : ∀ a, (![0, 0] : Fin 2 → Nat) a + S160x800.size a ≤ S160x800.size a
  h_S160x800 : 0 < S160x800.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  transposes_S160x800_p1_0_S800x160 : S160x800.Transposes [1, 0] S800x160
  broadcasts_S1x160_S8x160 : S1x160.Broadcasts S8x160
  inb_S10x160_S10x160_0_0 : ∀ a, (![0, 0] : Fin 2 → Nat) a + S10x160.size a ≤ S10x160.size a
  h_S10x160 : 0 < S10x160.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  transposes_S10x160_p1_0_S160x10 : S10x160.Transposes [1, 0] S160x10
  broadcasts_S1x10_S8x10 : S1x10.Broadcasts S8x10
  reduces_S8x10_S8 : S8x10.Reduces [1] S8
  shapeCasts_S8_S8x1 : S8.ShapeCasts S8x1
  broadcasts_S8x1_S8x10 : S8x1.Broadcasts S8x10
  inb_S8x10_S8x10_0_0 : ∀ a, (![0, 0] : Fin 2 → Nat) a + S8x10.size a ≤ S8x10.size a
  h_S8x10 : 0 < S8x10.numel
  gather_S160000x1_S5120000x1_S5120000x1_1_0_n_n_0_1_11_wf : GatherDims.WF S160000x1 S5120000x1 S5120000x1 [1] [0] [] [0] [] 1 ![1, 1]
  scatter_S160000x1_S5120000x1_S5120000x1_1_0_0_1_wf : ScatterDims.WF S160000x1 S5120000x1 S5120000x1 [1] [0] [0] 1
  dot_S2000x1_S1x16_S2000x16_1_0_0_1_n_n_wf : DotDims.WF S2000x1 S1x16 S2000x16 [1] [0] [0] [1] [] []
  gather_S160000x16_S5120000x1_S5120000x16_1_0_n_n_0_1_116_wf : GatherDims.WF S160000x16 S5120000x1 S5120000x16 [1] [0] [] [0] [] 1 ![1, 16]
  scatter_S160000x16_S5120000x1_S5120000x16_1_0_0_1_wf : ScatterDims.WF S160000x16 S5120000x1 S5120000x16 [1] [0] [0] 1
  dot_S2000x16_S16x1_S2000x1_1_0_0_1_n_n_wf : DotDims.WF S2000x16 S16x1 S2000x1 [1] [0] [0] [1] [] []
  dot_S40x20000_S20000x8_S40x8_1_0_0_1_n_n_wf : DotDims.WF S40x20000 S20000x8 S40x8 [1] [0] [0] [1] [] []
  dot_S8x4000_S4000x800_S8x800_1_0_0_1_n_n_wf : DotDims.WF S8x4000 S4000x800 S8x800 [1] [0] [0] [1] [] []
  dot_S8x800_S800x160_S8x160_1_0_0_1_n_n_wf : DotDims.WF S8x800 S800x160 S8x160 [1] [0] [0] [1] [] []
  dot_S8x160_S160x10_S8x10_1_0_0_1_n_n_wf : DotDims.WF S8x160 S160x10 S8x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S160000x1.size a
  hwx0_0 : ∀ i : grid0.Coords, EltTy.bits .f32 = 32 ∨ (Rect.block (s := S160000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S160000x1.size a
  hwx0_1 : ∀ i : grid0.Coords, EltTy.bits .f32 = 32 ∨ (Rect.block (s := S160000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S160000x16.size a
  hwx0_5 : ∀ i : grid0.Coords, EltTy.bits .f32 = 32 ∨ (Rect.block (s := S160000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S160000x16.size a
  hwx1_0 : ∀ i : grid1.Coords, EltTy.bits .f32 = 32 ∨ (Rect.block (s := S160000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S160000x16.size a
  hwx1_1 : ∀ i : grid1.Coords, EltTy.bits .f32 = 32 ∨ (Rect.block (s := S160000x16) S2000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S160000x1.size a
  hwx1_5 : ∀ i : grid1.Coords, EltTy.bits .f32 = 32 ∨ (Rect.block (s := S160000x1) S2000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S40x20000.size a ≤ S4000x20000.size a
  hwx2_0 : ∀ i : grid2.Coords, EltTy.bits .f32 = 32 ∨ (Rect.block (s := S4000x20000) S40x20000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20000x8.size a ≤ S20000x8.size a
  hwx2_1 : ∀ i : grid2.Coords, EltTy.bits .f32 = 32 ∨ (Rect.block (s := S20000x8) S20000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S40x1.size a ≤ S4000x1.size a
  hwx2_2 : ∀ i : grid2.Coords, EltTy.bits .f32 = 32 ∨ (Rect.block (s := S4000x1) S40x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S40x8.size a ≤ S4000x8.size a
  hwx2_3 : ∀ i : grid2.Coords, EltTy.bits .f32 = 32 ∨ (Rect.block (s := S4000x8) S40x8.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S8x4000.size a ≤ S8x4000.size a
  hwx3_0 : ∀ i : grid3.Coords, EltTy.bits .f32 = 32 ∨ (Rect.block (s := S8x4000) S8x4000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S800x4000.size a ≤ S800x4000.size a
  hwx3_1 : ∀ i : grid3.Coords, EltTy.bits .f32 = 32 ∨ (Rect.block (s := S800x4000) S800x4000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x800.size a ≤ S1x800.size a
  hwx3_2 : ∀ i : grid3.Coords, EltTy.bits .f32 = 32 ∨ (Rect.block (s := S1x800) S1x800.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S160x800.size a ≤ S160x800.size a
  hwx3_3 : ∀ i : grid3.Coords, EltTy.bits .f32 = 32 ∨ (Rect.block (s := S160x800) S160x800.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x160.size a ≤ S1x160.size a
  hwx3_4 : ∀ i : grid3.Coords, EltTy.bits .f32 = 32 ∨ (Rect.block (s := S1x160) S1x160.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10x160.size a ≤ S10x160.size a
  hwx3_5 : ∀ i : grid3.Coords, EltTy.bits .f32 = 32 ∨ (Rect.block (s := S10x160) S10x160.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S8x10.size a ≤ S8x10.size a
  hwx3_7 : ∀ i : grid3.Coords, EltTy.bits .f32 = 32 ∨ (Rect.block (s := S8x10) S8x10.size (cc3_transform_7 i) (hinb3_7 i)).WholeWords (EltTy.packing .f32)

variable [Facts₀]

def gather_S160000x1_S5120000x1_S5120000x1_1_0_n_n_0_1_11 : GatherDims S160000x1 S5120000x1 S5120000x1 where
  offsetDims := [1]
  collapsedSliceDims := [0]
  operandBatchingDims := []
  startIndicesBatchingDims := []
  startIndexMap := [0]
  indexVectorDim := 1
  sliceSizes := ![1, 1]
  wf := gather_S160000x1_S5120000x1_S5120000x1_1_0_n_n_0_1_11_wf
def scatter_S160000x1_S5120000x1_S5120000x1_1_0_0_1 : ScatterDims S160000x1 S5120000x1 S5120000x1 where
  updateWindowDims := [1]
  insertedWindowDims := [0]
  scatterDimsToOperandDims := [0]
  indexVectorDim := 1
  wf := scatter_S160000x1_S5120000x1_S5120000x1_1_0_0_1_wf
def dot_S2000x1_S1x16_S2000x16_1_0_0_1_n_n : DotDims S2000x1 S1x16 S2000x16 where
  lhsContracting := [1]
  rhsContracting := [0]
  lhsNonContracting := [0]
  rhsNonContracting := [1]
  lhsBatch := []
  rhsBatch := []
  wf := dot_S2000x1_S1x16_S2000x16_1_0_0_1_n_n_wf
def gather_S160000x16_S5120000x1_S5120000x16_1_0_n_n_0_1_116 : GatherDims S160000x16 S5120000x1 S5120000x16 where
  offsetDims := [1]
  collapsedSliceDims := [0]
  operandBatchingDims := []
  startIndicesBatchingDims := []
  startIndexMap := [0]
  indexVectorDim := 1
  sliceSizes := ![1, 16]
  wf := gather_S160000x16_S5120000x1_S5120000x16_1_0_n_n_0_1_116_wf
def scatter_S160000x16_S5120000x1_S5120000x16_1_0_0_1 : ScatterDims S160000x16 S5120000x1 S5120000x16 where
  updateWindowDims := [1]
  insertedWindowDims := [0]
  scatterDimsToOperandDims := [0]
  indexVectorDim := 1
  wf := scatter_S160000x16_S5120000x1_S5120000x16_1_0_0_1_wf
def dot_S2000x16_S16x1_S2000x1_1_0_0_1_n_n : DotDims S2000x16 S16x1 S2000x1 where
  lhsContracting := [1]
  rhsContracting := [0]
  lhsNonContracting := [0]
  rhsNonContracting := [1]
  lhsBatch := []
  rhsBatch := []
  wf := dot_S2000x16_S16x1_S2000x1_1_0_0_1_n_n_wf
def dot_S40x20000_S20000x8_S40x8_1_0_0_1_n_n : DotDims S40x20000 S20000x8 S40x8 where
  lhsContracting := [1]
  rhsContracting := [0]
  lhsNonContracting := [0]
  rhsNonContracting := [1]
  lhsBatch := []
  rhsBatch := []
  wf := dot_S40x20000_S20000x8_S40x8_1_0_0_1_n_n_wf
def dot_S8x4000_S4000x800_S8x800_1_0_0_1_n_n : DotDims S8x4000 S4000x800 S8x800 where
  lhsContracting := [1]
  rhsContracting := [0]
  lhsNonContracting := [0]
  rhsNonContracting := [1]
  lhsBatch := []
  rhsBatch := []
  wf := dot_S8x4000_S4000x800_S8x800_1_0_0_1_n_n_wf
def dot_S8x800_S800x160_S8x160_1_0_0_1_n_n : DotDims S8x800 S800x160 S8x160 where
  lhsContracting := [1]
  rhsContracting := [0]
  lhsNonContracting := [0]
  rhsNonContracting := [1]
  lhsBatch := []
  rhsBatch := []
  wf := dot_S8x800_S800x160_S8x160_1_0_0_1_n_n_wf
def dot_S8x160_S160x10_S8x10_1_0_0_1_n_n : DotDims S8x160 S160x10 S8x10 where
  lhsContracting := [1]
  rhsContracting := [0]
  lhsNonContracting := [0]
  rhsNonContracting := [1]
  lhsBatch := []
  rhsBatch := []
  wf := dot_S8x160_S160x10_S8x10_1_0_0_1_n_n_wf

abbrev win0_0 : Pipeline.Window sig grid0 :=
  Pipeline.Window.ofSpec (Memref.whole main_v15) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg8) S40x20000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S20000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S40x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S40x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S8x4000.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S800x4000.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x800.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S160x800.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x160.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S10x160.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41) S8x10.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S160000x1 : Shape := ⟨2, ![160000, 1]⟩
abbrev S5120000 : Shape := ⟨1, ![5120000]⟩
abbrev S16x1 : Shape := ⟨2, ![16, 1]⟩
abbrev S16 : Shape := ⟨1, ![16]⟩
abbrev S1x16 : Shape := ⟨2, ![1, 16]⟩
abbrev S1 : Shape := ⟨1, ![1]⟩
abbrev S4000x20000 : Shape := ⟨2, ![4000, 20000]⟩
abbrev S4000 : Shape := ⟨1, ![4000]⟩
abbrev S800x4000 : Shape := ⟨2, ![800, 4000]⟩
abbrev S800 : Shape := ⟨1, ![800]⟩
abbrev S160x800 : Shape := ⟨2, ![160, 800]⟩
abbrev S160 : Shape := ⟨1, ![160]⟩
abbrev S10x160 : Shape := ⟨2, ![10, 160]⟩
abbrev S10 : Shape := ⟨1, ![10]⟩
abbrev S2x5120000 : Shape := ⟨2, ![2, 5120000]⟩
abbrev S160000 : Shape := ⟨1, ![160000]⟩
abbrev S1x5120000 : Shape := ⟨2, ![1, 5120000]⟩
abbrev S_ : Shape := ⟨0, ![]⟩
abbrev S5120000x1 : Shape := ⟨2, ![5120000, 1]⟩
abbrev S160000x16 : Shape := ⟨2, ![160000, 16]⟩
abbrev S5120000x16 : Shape := ⟨2, ![5120000, 16]⟩
abbrev S1x1 : Shape := ⟨2, ![1, 1]⟩
abbrev S8x20000 : Shape := ⟨2, ![8, 20000]⟩
abbrev S20000x4000 : Shape := ⟨2, ![20000, 4000]⟩
abbrev S8x4000 : Shape := ⟨2, ![8, 4000]⟩
abbrev S1x4000 : Shape := ⟨2, ![1, 4000]⟩
abbrev S4000x800 : Shape := ⟨2, ![4000, 800]⟩
abbrev S8x800 : Shape := ⟨2, ![8, 800]⟩
abbrev S1x800 : Shape := ⟨2, ![1, 800]⟩
abbrev S800x160 : Shape := ⟨2, ![800, 160]⟩
abbrev S8x160 : Shape := ⟨2, ![8, 160]⟩
abbrev S1x160 : Shape := ⟨2, ![1, 160]⟩
abbrev S160x10 : Shape := ⟨2, ![160, 10]⟩
abbrev S8x10 : Shape := ⟨2, ![8, 10]⟩
abbrev S1x10 : Shape := ⟨2, ![1, 10]⟩
abbrev S8 : Shape := ⟨1, ![8]⟩
abbrev S8x1 : Shape := ⟨2, ![8, 1]⟩

abbrev nBuf : Space → Nat
  | .hbm => 117
  | .vmem => 0
  | .smem => 0
  | _ => 0

abbrev bufTy : (tb : Table) → Fin (tcTables nBuf tb) → BufTy
  | .hbm, ⟨0, _⟩ => ⟨S160000x1, .f32⟩
  | .hbm, ⟨1, _⟩ => ⟨S5120000, .f32⟩
  | .hbm, ⟨2, _⟩ => ⟨S16x1, .f32⟩
  | .hbm, ⟨3, _⟩ => ⟨S16, .f32⟩
  | .hbm, ⟨4, _⟩ => ⟨S16x1, .f32⟩
  | .hbm, ⟨5, _⟩ => ⟨S1x16, .f32⟩
  | .hbm, ⟨6, _⟩ => ⟨S1, .f32⟩
  | .hbm, ⟨7, _⟩ => ⟨S1x16, .f32⟩
  | .hbm, ⟨8, _⟩ => ⟨S4000x20000, .f32⟩
  | .hbm, ⟨9, _⟩ => ⟨S4000, .f32⟩
  | .hbm, ⟨10, _⟩ => ⟨S800x4000, .f32⟩
  | .hbm, ⟨11, _⟩ => ⟨S800, .f32⟩
  | .hbm, ⟨12, _⟩ => ⟨S160x800, .f32⟩
  | .hbm, ⟨13, _⟩ => ⟨S160, .f32⟩
  | .hbm, ⟨14, _⟩ => ⟨S10x160, .f32⟩
  | .hbm, ⟨15, _⟩ => ⟨S10, .f32⟩
  | .hbm, ⟨16, _⟩ => ⟨S2x5120000, .i32⟩
  | .hbm, ⟨17, _⟩ => ⟨S160000, .i32⟩
  | .hbm, ⟨18, _⟩ => ⟨S1x5120000, .i32⟩
  | .hbm, ⟨19, _⟩ => ⟨S5120000, .i32⟩
  | .hbm, ⟨20, _⟩ => ⟨S1x5120000, .i32⟩
  | .hbm, ⟨21, _⟩ => ⟨S5120000, .i32⟩
  | .hbm, ⟨22, _⟩ => ⟨S_, .i32⟩
  | .hbm, ⟨23, _⟩ => ⟨S5120000, .i32⟩
  | .hbm, ⟨24, _⟩ => ⟨S5120000, .i1⟩
  | .hbm, ⟨25, _⟩ => ⟨S_, .i32⟩
  | .hbm, ⟨26, _⟩ => ⟨S5120000, .i32⟩
  | .hbm, ⟨27, _⟩ => ⟨S5120000, .i32⟩
  | .hbm, ⟨28, _⟩ => ⟨S5120000, .i32⟩
  | .hbm, ⟨29, _⟩ => ⟨S5120000x1, .i32⟩
  | .hbm, ⟨30, _⟩ => ⟨S5120000x1, .f32⟩
  | .hbm, ⟨31, _⟩ => ⟨S5120000x1, .f32⟩
  | .hbm, ⟨32, _⟩ => ⟨S5120000x1, .f32⟩
  | .hbm, ⟨33, _⟩ => ⟨S_, .f32⟩
  | .hbm, ⟨34, _⟩ => ⟨S160000x1, .f32⟩
  | .hbm, ⟨35, _⟩ => ⟨S5120000x1, .i32⟩
  | .hbm, ⟨36, _⟩ => ⟨S160000x1, .f32⟩
  | .hbm, ⟨37, _⟩ => ⟨S1x16, .f32⟩
  | .hbm, ⟨38, _⟩ => ⟨S160000x16, .f32⟩
  | .hbm, ⟨39, _⟩ => ⟨S1x16, .f32⟩
  | .hbm, ⟨40, _⟩ => ⟨S160000x16, .f32⟩
  | .hbm, ⟨41, _⟩ => ⟨S160000x16, .f32⟩
  | .hbm, ⟨42, _⟩ => ⟨S1x16, .f32⟩
  | .hbm, ⟨43, _⟩ => ⟨S160000x16, .f32⟩
  | .hbm, ⟨44, _⟩ => ⟨S160000x16, .f32⟩
  | .hbm, ⟨45, _⟩ => ⟨S_, .f32⟩
  | .hbm, ⟨46, _⟩ => ⟨S160000x16, .f32⟩
  | .hbm, ⟨47, _⟩ => ⟨S160000x16, .f32⟩
  | .hbm, ⟨48, _⟩ => ⟨S_, .i32⟩
  | .hbm, ⟨49, _⟩ => ⟨S5120000, .i32⟩
  | .hbm, ⟨50, _⟩ => ⟨S5120000, .i1⟩
  | .hbm, ⟨51, _⟩ => ⟨S_, .i32⟩
  | .hbm, ⟨52, _⟩ => ⟨S5120000, .i32⟩
  | .hbm, ⟨53, _⟩ => ⟨S5120000, .i32⟩
  | .hbm, ⟨54, _⟩ => ⟨S5120000, .i32⟩
  | .hbm, ⟨55, _⟩ => ⟨S5120000x1, .i32⟩
  | .hbm, ⟨56, _⟩ => ⟨S5120000x16, .f32⟩
  | .hbm, ⟨57, _⟩ => ⟨S5120000x1, .f32⟩
  | .hbm, ⟨58, _⟩ => ⟨S5120000x16, .f32⟩
  | .hbm, ⟨59, _⟩ => ⟨S5120000x16, .f32⟩
  | .hbm, ⟨60, _⟩ => ⟨S_, .f32⟩
  | .hbm, ⟨61, _⟩ => ⟨S160000x16, .f32⟩
  | .hbm, ⟨62, _⟩ => ⟨S5120000x1, .i32⟩
  | .hbm, ⟨63, _⟩ => ⟨S160000x16, .f32⟩
  | .hbm, ⟨64, _⟩ => ⟨S16x1, .f32⟩
  | .hbm, ⟨65, _⟩ => ⟨S160000x1, .f32⟩
  | .hbm, ⟨66, _⟩ => ⟨S1x1, .f32⟩
  | .hbm, ⟨67, _⟩ => ⟨S160000x1, .f32⟩
  | .hbm, ⟨68, _⟩ => ⟨S160000x1, .f32⟩
  | .hbm, ⟨69, _⟩ => ⟨S16x1, .f32⟩
  | .hbm, ⟨70, _⟩ => ⟨S160000x1, .f32⟩
  | .hbm, ⟨71, _⟩ => ⟨S160000x1, .f32⟩
  | .hbm, ⟨72, _⟩ => ⟨S8x20000, .f32⟩
  | .hbm, ⟨73, _⟩ => ⟨S20000x4000, .f32⟩
  | .hbm, ⟨74, _⟩ => ⟨S8x4000, .f32⟩
  | .hbm, ⟨75, _⟩ => ⟨S1x4000, .f32⟩
  | .hbm, ⟨76, _⟩ => ⟨S8x4000, .f32⟩
  | .hbm, ⟨77, _⟩ => ⟨S8x4000, .f32⟩
  | .hbm, ⟨78, _⟩ => ⟨S_, .f32⟩
  | .hbm, ⟨79, _⟩ => ⟨S8x4000, .f32⟩
  | .hbm, ⟨80, _⟩ => ⟨S8x4000, .f32⟩
  | .hbm, ⟨81, _⟩ => ⟨S4000x800, .f32⟩
  | .hbm, ⟨82, _⟩ => ⟨S8x800, .f32⟩
  | .hbm, ⟨83, _⟩ => ⟨S1x800, .f32⟩
  | .hbm, ⟨84, _⟩ => ⟨S8x800, .f32⟩
  | .hbm, ⟨85, _⟩ => ⟨S8x800, .f32⟩
  | .hbm, ⟨86, _⟩ => ⟨S_, .f32⟩
  | .hbm, ⟨87, _⟩ => ⟨S8x800, .f32⟩
  | .hbm, ⟨88, _⟩ => ⟨S8x800, .f32⟩
  | .hbm, ⟨89, _⟩ => ⟨S800x160, .f32⟩
  | .hbm, ⟨90, _⟩ => ⟨S8x160, .f32⟩
  | .hbm, ⟨91, _⟩ => ⟨S1x160, .f32⟩
  | .hbm, ⟨92, _⟩ => ⟨S8x160, .f32⟩
  | .hbm, ⟨93, _⟩ => ⟨S8x160, .f32⟩
  | .hbm, ⟨94, _⟩ => ⟨S_, .f32⟩
  | .hbm, ⟨95, _⟩ => ⟨S8x160, .f32⟩
  | .hbm, ⟨96, _⟩ => ⟨S8x160, .f32⟩
  | .hbm, ⟨97, _⟩ => ⟨S160x10, .f32⟩
  | .hbm, ⟨98, _⟩ => ⟨S8x10, .f32⟩
  | .hbm, ⟨99, _⟩ => ⟨S1x10, .f32⟩
  | .hbm, ⟨100, _⟩ => ⟨S8x10, .f32⟩
  | .hbm, ⟨101, _⟩ => ⟨S8x10, .f32⟩
  | .hbm, ⟨102, _⟩ => ⟨S_, .f32⟩
  | .hbm, ⟨103, _⟩ => ⟨S8, .f32⟩
  | .hbm, ⟨104, _⟩ => ⟨S_, .f32⟩
  | .hbm, ⟨105, _⟩ => ⟨S8, .f32⟩
  | .hbm, ⟨106, _⟩ => ⟨S8, .f32⟩
  | .hbm, ⟨107, _⟩ => ⟨S8x1, .f32⟩
  | .hbm, ⟨108, _⟩ => ⟨S8x10, .f32⟩
  | .hbm, ⟨109, _⟩ => ⟨S8x10, .f32⟩
  | .hbm, ⟨110, _⟩ => ⟨S8x10, .f32⟩
  | .hbm, ⟨111, _⟩ => ⟨S_, .f32⟩
  | .hbm, ⟨112, _⟩ => ⟨S8, .f32⟩
  | .hbm, ⟨113, _⟩ => ⟨S8x1, .f32⟩
  | .hbm, ⟨114, _⟩ => ⟨S8x1, .f32⟩
  | .hbm, ⟨115, _⟩ => ⟨S8x10, .f32⟩
  | .hbm, ⟨116, _⟩ => ⟨S8x10, .f32⟩
  | _, _ => ⟨S160000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_cst : Ref sig .tc := ⟨.hbm, 45, rfl⟩
abbrev main_call0_v0 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_cst : Ref sig .tc := ⟨.hbm, 78, rfl⟩
abbrev main_call1_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_cst : Ref sig .tc := ⟨.hbm, 94, rfl⟩
abbrev main_call3_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call4_cst : Ref sig .tc := ⟨.hbm, 102, rfl⟩
abbrev main_call4_v0 : Ref sig .tc := ⟨.hbm, 103, rfl⟩
abbrev main_call4_cst_0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_cst_1 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_v70 : Ref sig .tc := ⟨.hbm, 116, rfl⟩

abbrev nD : Nat := 1
abbrev τ : Topo := Topo.v7x

variable {F : FTy → Type} [FloatOps F]

class Facts₀ : Prop where
  slices_S2x5120000_S1x5120000_0_0 : S2x5120000.Slices ![0, 0] S1x5120000
  shapeCasts_S1x5120000_S5120000 : S1x5120000.ShapeCasts S5120000
  slices_S2x5120000_S1x5120000_1_0 : S2x5120000.Slices ![1, 0] S1x5120000
  bcast_S_S5120000 : S_.BroadcastsInDim S5120000 (![] : Fin 0 → Fin S5120000.rank)
  bcast_S5120000_S5120000x1_0 : S5120000.BroadcastsInDim S5120000x1 (![0] : Fin 1 → Fin S5120000x1.rank)
  bcast_S_S160000x1 : S_.BroadcastsInDim S160000x1 (![] : Fin 0 → Fin S160000x1.rank)
  transposes_S16x1_S1x16_1_0 : S16x1.Transposes [1, 0] S1x16
  bcast_S16_S1x16_1 : S16.BroadcastsInDim S1x16 (![1] : Fin 1 → Fin S1x16.rank)
  bcast_S1x16_S160000x16_0_1 : S1x16.BroadcastsInDim S160000x16 (![0, 1] : Fin 2 → Fin S160000x16.rank)
  bcast_S_S160000x16 : S_.BroadcastsInDim S160000x16 (![] : Fin 0 → Fin S160000x16.rank)
  bcast_S5120000x1_S5120000x16_0_1 : S5120000x1.BroadcastsInDim S5120000x16 (![0, 1] : Fin 2 → Fin S5120000x16.rank)
  transposes_S1x16_S16x1_1_0 : S1x16.Transposes [1, 0] S16x1
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  shapeCasts_S160000x1_S8x20000 : S160000x1.ShapeCasts S8x20000
  transposes_S4000x20000_S20000x4000_1_0 : S4000x20000.Transposes [1, 0] S20000x4000
  bcast_S4000_S1x4000_1 : S4000.BroadcastsInDim S1x4000 (![1] : Fin 1 → Fin S1x4000.rank)
  bcast_S1x4000_S8x4000_0_1 : S1x4000.BroadcastsInDim S8x4000 (![0, 1] : Fin 2 → Fin S8x4000.rank)
  bcast_S_S8x4000 : S_.BroadcastsInDim S8x4000 (![] : Fin 0 → Fin S8x4000.rank)
  transposes_S800x4000_S4000x800_1_0 : S800x4000.Transposes [1, 0] S4000x800
  bcast_S800_S1x800_1 : S800.BroadcastsInDim S1x800 (![1] : Fin 1 → Fin S1x800.rank)
  bcast_S1x800_S8x800_0_1 : S1x800.BroadcastsInDim S8x800 (![0, 1] : Fin 2 → Fin S8x800.rank)
  bcast_S_S8x800 : S_.BroadcastsInDim S8x800 (![] : Fin 0 → Fin S8x800.rank)
  transposes_S160x800_S800x160_1_0 : S160x800.Transposes [1, 0] S800x160
  bcast_S160_S1x160_1 : S160.BroadcastsInDim S1x160 (![1] : Fin 1 → Fin S1x160.rank)
  bcast_S1x160_S8x160_0_1 : S1x160.BroadcastsInDim S8x160 (![0, 1] : Fin 2 → Fin S8x160.rank)
  bcast_S_S8x160 : S_.BroadcastsInDim S8x160 (![] : Fin 0 → Fin S8x160.rank)
  transposes_S10x160_S160x10_1_0 : S10x160.Transposes [1, 0] S160x10
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  reducesTo_S8x10_S8_d1 : S8x10.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x10_0_1 : S8x1.BroadcastsInDim S8x10 (![0, 1] : Fin 2 → Fin S8x10.rank)
  gather_S160000x1_S5120000x1_S5120000x1_1_0_n_n_0_1_11_wf : GatherDims.WF S160000x1 S5120000x1 S5120000x1 [1] [0] [] [0] [] 1 ![1, 1]
  scatter_S160000x1_S5120000x1_S5120000x1_1_0_0_1_wf : ScatterDims.WF S160000x1 S5120000x1 S5120000x1 [1] [0] [0] 1
  dot_S160000x1_S1x16_S160000x16_1_0_0_1_n_n_wf : DotDims.WF S160000x1 S1x16 S160000x16 [1] [0] [0] [1] [] []
  gather_S160000x16_S5120000x1_S5120000x16_1_0_n_n_0_1_116_wf : GatherDims.WF S160000x16 S5120000x1 S5120000x16 [1] [0] [] [0] [] 1 ![1, 16]
  scatter_S160000x16_S5120000x1_S5120000x16_1_0_0_1_wf : ScatterDims.WF S160000x16 S5120000x1 S5120000x16 [1] [0] [0] 1
  dot_S160000x16_S16x1_S160000x1_1_0_0_1_n_n_wf : DotDims.WF S160000x16 S16x1 S160000x1 [1] [0] [0] [1] [] []
  dot_S8x20000_S20000x4000_S8x4000_1_0_0_1_n_n_wf : DotDims.WF S8x20000 S20000x4000 S8x4000 [1] [0] [0] [1] [] []
  dot_S8x4000_S4000x800_S8x800_1_0_0_1_n_n_wf : DotDims.WF S8x4000 S4000x800 S8x800 [1] [0] [0] [1] [] []
  dot_S8x800_S800x160_S8x160_1_0_0_1_n_n_wf : DotDims.WF S8x800 S800x160 S8x160 [1] [0] [0] [1] [] []
  dot_S8x160_S160x10_S8x10_1_0_0_1_n_n_wf : DotDims.WF S8x160 S160x10 S8x10 [1] [0] [0] [1] [] []

variable [Facts₀]

def gather_S160000x1_S5120000x1_S5120000x1_1_0_n_n_0_1_11 : GatherDims S160000x1 S5120000x1 S5120000x1 where
  offsetDims := [1]
  collapsedSliceDims := [0]
  operandBatchingDims := []
  startIndicesBatchingDims := []
  startIndexMap := [0]
  indexVectorDim := 1
  sliceSizes := ![1, 1]
  wf := gather_S160000x1_S5120000x1_S5120000x1_1_0_n_n_0_1_11_wf
def scatter_S160000x1_S5120000x1_S5120000x1_1_0_0_1 : ScatterDims S160000x1 S5120000x1 S5120000x1 where
  updateWindowDims := [1]
  insertedWindowDims := [0]
  scatterDimsToOperandDims := [0]
  indexVectorDim := 1
  wf := scatter_S160000x1_S5120000x1_S5120000x1_1_0_0_1_wf
def dot_S160000x1_S1x16_S160000x16_1_0_0_1_n_n : DotDims S160000x1 S1x16 S160000x16 where
  lhsContracting := [1]
  rhsContracting := [0]
  lhsNonContracting := [0]
  rhsNonContracting := [1]
  lhsBatch := []
  rhsBatch := []
  wf := dot_S160000x1_S1x16_S160000x16_1_0_0_1_n_n_wf
def gather_S160000x16_S5120000x1_S5120000x16_1_0_n_n_0_1_116 : GatherDims S160000x16 S5120000x1 S5120000x16 where
  offsetDims := [1]
  collapsedSliceDims := [0]
  operandBatchingDims := []
  startIndicesBatchingDims := []
  startIndexMap := [0]
  indexVectorDim := 1
  sliceSizes := ![1, 16]
  wf := gather_S160000x16_S5120000x1_S5120000x16_1_0_n_n_0_1_116_wf
def scatter_S160000x16_S5120000x1_S5120000x16_1_0_0_1 : ScatterDims S160000x16 S5120000x1 S5120000x16 where
  updateWindowDims := [1]
  insertedWindowDims := [0]
  scatterDimsToOperandDims := [0]
  indexVectorDim := 1
  wf := scatter_S160000x16_S5120000x1_S5120000x16_1_0_0_1_wf
def dot_S160000x16_S16x1_S160000x1_1_0_0_1_n_n : DotDims S160000x16 S16x1 S160000x1 where
  lhsContracting := [1]
  rhsContracting := [0]
  lhsNonContracting := [0]
  rhsNonContracting := [1]
  lhsBatch := []
  rhsBatch := []
  wf := dot_S160000x16_S16x1_S160000x1_1_0_0_1_n_n_wf
def dot_S8x20000_S20000x4000_S8x4000_1_0_0_1_n_n : DotDims S8x20000 S20000x4000 S8x4000 where
  lhsContracting := [1]
  rhsContracting := [0]
  lhsNonContracting := [0]
  rhsNonContracting := [1]
  lhsBatch := []
  rhsBatch := []
  wf := dot_S8x20000_S20000x4000_S8x4000_1_0_0_1_n_n_wf
def dot_S8x4000_S4000x800_S8x800_1_0_0_1_n_n : DotDims S8x4000 S4000x800 S8x800 where
  lhsContracting := [1]
  rhsContracting := [0]
  lhsNonContracting := [0]
  rhsNonContracting := [1]
  lhsBatch := []
  rhsBatch := []
  wf := dot_S8x4000_S4000x800_S8x800_1_0_0_1_n_n_wf
def dot_S8x800_S800x160_S8x160_1_0_0_1_n_n : DotDims S8x800 S800x160 S8x160 where
  lhsContracting := [1]
  rhsContracting := [0]
  lhsNonContracting := [0]
  rhsNonContracting := [1]
  lhsBatch := []
  rhsBatch := []
  wf := dot_S8x800_S800x160_S8x160_1_0_0_1_n_n_wf
def dot_S8x160_S160x10_S8x10_1_0_0_1_n_n : DotDims S8x160 S160x10 S8x10 where
  lhsContracting := [1]
  rhsContracting := [0]
  lhsNonContracting := [0]
  rhsNonContracting := [1]
  lhsBatch := []
  rhsBatch := []
  wf := dot_S8x160_S160x10_S8x10_1_0_0_1_n_n_wf

class Facts : Prop extends Facts₀ where

variable [Facts]
-- ==== Proof.KernelRun.lean ====
/-
  The idealized kernel's run, with the result array named.

  The program is four kernel launches among stretches of host operations. Its run passes through nine boundaries;
  at each, every buffer outside the launches' scratch holds a known array: the launch memory, then alternately what a
  stretch of host operations computes from the previous boundary and what a launch's write-backs leave. Every weakly
  fair execution terminates, and at the end the result buffer holds the last boundary's array at that buffer, while
  each argument array is as launched.
-/
import proofs.«105413_j59897613910372_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's array, and
    the argument arrays end as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Cert.KernelIdeal.RunValue

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibDenseT.lean ====
/-
  A linear layer with the weight matrix stored output-major, read at an entry, generic in the sizes.

  The weights `W` are a `B × K` matrix (one row per output); the layer multiplies an `A × K` matrix `x` by the
  transpose of `W`. Entry `(r, j)` of the product is the sum over `k` of `x (r, k) · W (j, k)`: for the matrix
  unit's product into a zero accumulator (`matmulT_zero_apply`) and for the host's product (`dotT_apply`), over the
  extended reals, at any precision attribute and any float formats of the operands. With a bias row added, the entry
  is that sum plus the bias at `j`: the bias a one-row matrix broadcast down the rows (`matmulT_rowBias_apply`), or a
  vector broadcast to one row and then down the rows (`dotT_vecBias_apply`).
-/
import proofs.«105413_j59897613910372_2_alg».proof.Proof.LibContractPlain
import Idealize.ShloMosaic.Lib.ValueLayout
import Idealize.ShloMosaic.Lib.Pipeline.Value

noncomputable section

open scoped BigOperators

namespace Cert.LibDenseT

open Idealize.ShloMosaic Idealize.ShloMosaic.ValueIdx Cert.LibContractPlain

/-- The matrix unit's product of `x` by the transposed weights, into a zero accumulator, at `(r, j)`. -/
theorem matmulT_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    FloatOps.matmul (plainDims A K B wf) prec x (transpose ⟨2, ![K, B]⟩ [1, 0] W hT)
        (constant (F := Ideal) ⟨2, ![A, B]⟩ .f32 0x00000000#32) (ix2 r j)
      = ∑ k : Fin K, x (ix2 r k) * W (ix2 j k) := by
  rw [matmulPlain_zero_apply]
  refine Finset.sum_congr rfl fun k _ => ?_
  rw [transpose_ix2_apply]

/-- The host's product of `x` by the transposed weights, at `(r, j)`. -/
theorem dotT_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    Host.dotGeneral (plainDims A K B wf) prec x (transpose ⟨2, ![K, B]⟩ [1, 0] W hT) (ix2 r j)
      = ∑ k : Fin K, x (ix2 r k) * W (ix2 j k) := by
  rw [dotPlain_apply]
  refine Finset.sum_congr rfl fun k _ => ?_
  rw [transpose_ix2_apply]

/-- A one-row matrix broadcast down `A` rows reads, at `(r, j)`, the row's entry `j`. -/
theorem rowDown_apply {α : Type} {A B : Nat} (b : (⟨2, ![1, B]⟩ : Shape).Idx → α)
    (h : (⟨2, ![1, B]⟩ : Shape).Broadcasts ⟨2, ![A, B]⟩) (r : Fin A) (j : Fin B) :
    broadcastTo ⟨2, ![A, B]⟩ b h (ix2 r j) = b (ix2 (0 : Fin 1) j) :=
  broadcastTo_1b_ab_apply b h r j

/-- A vector broadcast to one row and then down `A` rows reads, at `(r, j)`, the vector's entry `j`. -/
theorem vecDown_apply {α : Type} {A B : Nat} (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (r : Fin A) (j : Fin B) :
    broadcastInDim ⟨2, ![A, B]⟩ ![0, 1] h2 (broadcastInDim ⟨2, ![1, B]⟩ ![1] h1 b) (ix2 r j) = b (ix1 j) := by
  refine (broadcastInDim_apply _ h2 _ (ix2 r j) (ix2 (0 : Fin 1) j) (fun c => match c with
    | ⟨0, _⟩ => by
      show 0 = if (1 : Nat) = 1 then 0 else r.val
      rw [if_pos rfl]
    | ⟨1, _⟩ => by
      show j.val = if B = 1 then 0 else j.val
      split
      · have := j.isLt; omega
      · rfl)).trans ?_
  exact broadcastInDim_apply _ h1 b (ix2 (0 : Fin 1) j) (ix1 j) (fun c => match c with
    | ⟨0, _⟩ => by
      show j.val = if B = 1 then 0 else j.val
      split
      · have := j.isLt; omega
      · rfl)

/-- A vector reshaped to one row reads, at `(0, j)`, the vector's entry `j`. -/
theorem vecAsRow_apply {α : Type} {B : Nat} (b : (⟨1, ![B]⟩ : Shape).Idx → α)
    (h : (⟨1, ![B]⟩ : Shape).ShapeCasts ⟨2, ![1, B]⟩) (u : Fin 1) (j : Fin B) :
    shapeCast ⟨2, ![1, B]⟩ b h (ix2 u j) = b (ix1 j) :=
  shapeCast_apply b h _ _ (by
    have hu : u.val = 0 := by omega
    rw [Shape.rowMajor_val_two, Shape.rowMajor_val_one]
    show j.val = u.val * B + j.val
    rw [hu, Nat.zero_mul, Nat.zero_add])

end Cert.LibDenseT

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.Bodies.lean ====
/-
  The arithmetic of the four kernel bodies, read at an entry, over the extended reals.

  Each body is a small stack of linear layers. A layer multiplies its input by the transpose of a weight matrix
  stored output-major and adds a bias; at the ideal values the rounding to a shorter float format before the
  product is the identity and the product into a zero accumulator is the plain sum over the contracted coordinate.
  * The first graph convolution's combine: `max (agg·Wrᵀ + b + x·Wsᵀ) 0` on a block of 2000 nodes.
  * The second: `agg·Wrᵀ + b + x·Wsᵀ` on a block of 2000 nodes, no rectifier.
  * The first perceptron layer, computed transposed: `max (W·gᵀ + b) 0` on a block of 40 output rows.
-/
import proofs.«105413_j59897613910372_2_alg».proof.Proof.Gen.KernelIdeal.Skeleton
import proofs.«105413_j59897613910372_2_alg».proof.Proof.LibDenseT
import proofs.«105413_j59897613910372_2_alg».proof.Proof.LibLayout
import Idealize.ShloMosaic.Lib.ValueIdx
import Idealize.ShloMosaic.PureOps.Ideal.Laws

noncomputable section

open scoped BigOperators

namespace Cert.KernelIdeal.Bodies

open Cert.KernelIdeal Cert.KernelIdeal.Gen Idealize.ShloMosaic Idealize.ShloMosaic.ValueIdx
open Cert.LibDenseT Cert.LibContractPlain

/-- The first combine at `(p, q)` of a block: node `p`'s aggregated message and own feature (one channel each)
    against row `q` of the two weight matrices, plus bias `q`, rectified. -/
theorem conv1_apply (x0 x1 : Vec Ideal S2000x1 .f32) (x2 x4 : Vec Ideal S16x1 .f32) (x3 : Vec Ideal S1x16 .f32)
    (p : Fin 2000) (q : Fin 16) :
    k0_pay1 (F := Ideal) x0 x1 x2 x4 x3 (ix2 p q)
      = max ((∑ k : Fin 1, x0 (ix2 p k) * x2 (ix2 q k)) + x3 (ix2 (0 : Fin 1) q)
              + ∑ k : Fin 1, x1 (ix2 p k) * x4 (ix2 q k)) (Ideal.ofBits .f32 0x00000000#32) := by
  unfold k0_pay1
  simp only [shapeCast_self]
  rw [show dot_S2000x1_S1x16_S2000x16_1_0_0_1_n_n = plainDims 2000 1 16 dot_S2000x1_S1x16_S2000x16_1_0_0_1_n_n.wf from rfl]
  refine congrArg₂ max (congrArg₂ (· + ·) (congrArg₂ (· + ·) ?_ ?_) ?_) rfl
  · exact matmulT_zero_apply 2000 1 16 _ none _ x2 _ p q
  · exact rowDown_apply x3 _ p q
  · exact matmulT_zero_apply 2000 1 16 _ none _ x4 _ p q

/-- The second combine at `(p, u)` of a block (one output channel `u`): node `p`'s 16 aggregated channels and 16
    own channels against the two weight rows, plus the bias. -/
theorem conv2_apply (x0 x1 : Vec Ideal S2000x16 .f32) (x2 x4 : Vec Ideal S1x16 .f32) (x3 : Vec Ideal S1x1 .f32)
    (p : Fin 2000) (u : Fin 1) :
    k1_pay1 (F := Ideal) x0 x1 x2 x4 x3 (ix2 p u)
      = (∑ k : Fin 16, x0 (ix2 p k) * x2 (ix2 u k)) + x3 (ix2 (0 : Fin 1) u)
          + ∑ k : Fin 16, x1 (ix2 p k) * x4 (ix2 u k) := by
  unfold k1_pay1
  simp only [shapeCast_self]
  rw [show dot_S2000x16_S16x1_S2000x1_1_0_0_1_n_n = plainDims 2000 16 1 dot_S2000x16_S16x1_S2000x1_1_0_0_1_n_n.wf from rfl]
  refine congrArg₂ (· + ·) (congrArg₂ (· + ·) ?_ ?_) ?_
  · exact matmulT_zero_apply 2000 16 1 _ none _ x2 _ p u
  · exact rowDown_apply x3 _ p u
  · exact matmulT_zero_apply 2000 16 1 _ none _ x4 _ p u

/-- The first perceptron layer at `(p, b)` of a block: weight row `p` against graph `b`'s 20000 node values (the
    activations stored node-major), plus bias `p`, rectified. -/
theorem mlp1_apply (x0 : Vec Ideal S40x20000 .f32) (x1 : Vec Ideal S20000x8 .f32) (x2 : Vec Ideal S40x1 .f32)
    (p : Fin 40) (b : Fin 8) :
    k2_pay1 (F := Ideal) x0 x1 x2 (ix2 p b)
      = max ((∑ k : Fin 20000, x0 (ix2 p k) * x1 (ix2 k b)) + x2 (ix2 p (0 : Fin 1))) (Ideal.ofBits .f32 0x00000000#32) := by
  unfold k2_pay1
  simp only [shapeCast_self]
  rw [show dot_S40x20000_S20000x8_S40x8_1_0_0_1_n_n = plainDims 40 20000 8 dot_S40x20000_S20000x8_S40x8_1_0_0_1_n_n.wf from rfl]
  refine congrArg₂ max (congrArg₂ (· + ·) ?_ ?_) rfl
  · exact matmulPlain_zero_apply 40 20000 8 _ none _ _ p b
  · exact Cert.Attn.Layout.broadcastTo_a1_ab_apply x2 _ p b

end Cert.KernelIdeal.Bodies

end
-- ==== Proof.Conv1Array.lean ====
import proofs.«105413_j59897613910372_2_alg».proof.Proof.Gen.KernelIdeal.Frame
import proofs.«105413_j59897613910372_2_alg».proof.Proof.Bodies
import Idealize.ShloMosaic.Lib.Pipeline.Value

set_option maxRecDepth 16384

noncomputable section

open scoped BigOperators

namespace Cert.KernelIdeal.Conv1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The first graph convolution's combine on whole arrays: node `r`, channel `q`. -/
def conv1 (A X : S160000x1.Idx → EReal) (Wr Ws : S16x1.Idx → EReal) (b : S1x16.Idx → EReal) : S160000x16.Idx → EReal :=
  fun i => max ((∑ k : Fin 1, A (ix2 (i 0) k) * Wr (ix2 (i 1) k)) + b (ix2 (0 : Fin 1) (i 1))
      + ∑ k : Fin 1, X (ix2 (i 0) k) * Ws (ix2 (i 1) k)) (Ideal.ofBits .f32 0x00000000#32)

theorem hz : (![0, 0] : Fin 2 → Nat) = fun _ => 0 := funext fun a => by fin_cases a <;> rfl

/-- The block index maps over the 80 grid points: the node-blocked windows (aggregate, features, result) take block
    `t` of 2000 rows; the weights and the bias are one block. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is block `t` of the combine of the arrays as the launch finds them. -/
theorem flushed (c : Dev nD) (t : Fin cfg0.N) :
    (dat0 V c).flushed 5 t = ((cfg0.win 5).blk t).view.read (Elt Ideal)
      (conv1 (V c main_v15) (V c main_arg0) (V c main_arg2) (V c main_arg4) (V c main_v16)) := by
  show (cfg0.win 5).cut (grid0.coords t) ((dat0 V c).after 5 t) = _
  rw [after0_5]
  unfold out0_5
  rw [View.canon_unit_zero hz]
  simp only [View.ld_unit_zero (S := S2000x1) hz, View.ld_unit_zero (S := S16x1) hz, View.ld_unit_zero (S := S1x16) hz]
  obtain ⟨e00, e01, e10, e11, e20, e21, e30, e31, e40, e41, e50, e51⟩ := idx t
  funext j
  obtain ⟨p, q, rfl⟩ : ∃ (p : Fin 2000) (q : Fin 16), j = ix2 p q := ⟨j 0, j 1, eq_ix2 j⟩
  show k0_pay1 (iblk0 V c 0 t) (iblk0 V c 1 t) (iblk0 V c 2 t) (iblk0 V c 4 t) (iblk0 V c 3 t) (ix2 p q)
    = conv1 (V c main_v15) (V c main_arg0) (V c main_arg2) (V c main_arg4) (V c main_v16)
        (((cfg0.win 5).blk t).view.emb (ix2 p q))
  rw [Bodies.conv1_apply]
  unfold conv1
  have r0 : ∀ k : Fin 1, iblk0 V c 0 t (ix2 p k)
      = V c main_v15 (ix2 ((((cfg0.win 5).blk t).view.emb (ix2 p q)) 0) k) := fun k => by
    show V c main_v15 (((cfg0.win 0).blk t).view.emb (ix2 p k)) = _
    refine congrArg _ (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 1 + 1 * k.val = k.val; omega
  have r1 : ∀ k : Fin 1, iblk0 V c 1 t (ix2 p k)
      = V c main_arg0 (ix2 ((((cfg0.win 5).blk t).view.emb (ix2 p q)) 0) k) := fun k => by
    show V c main_arg0 (((cfg0.win 1).blk t).view.emb (ix2 p k)) = _
    refine congrArg _ (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 1 + 1 * k.val = k.val; omega
  have r2 : ∀ k : Fin 1, iblk0 V c 2 t (ix2 q k)
      = V c main_arg2 (ix2 ((((cfg0.win 5).blk t).view.emb (ix2 p q)) 1) k) := fun k => by
    show V c main_arg2 (((cfg0.win 2).blk t).view.emb (ix2 q k)) = _
    refine congrArg _ (funext fun a => Fin.ext ?_)
    match a with
    | ⟨0, _⟩ => show win0_2.index t (0 : Fin 2) * 16 + 1 * q.val = win0_5.index t (1 : Fin 2) * 16 + 1 * q.val; omega
    | ⟨1, _⟩ => show win0_2.index t (1 : Fin 2) * 1 + 1 * k.val = k.val; omega
  have r4 : ∀ k : Fin 1, iblk0 V c 4 t (ix2 q k)
      = V c main_arg4 (ix2 ((((cfg0.win 5).blk t).view.emb (ix2 p q)) 1) k) := fun k => by
    show V c main_arg4 (((cfg0.win 4).blk t).view.emb (ix2 q k)) = _
    refine congrArg _ (funext fun a => Fin.ext ?_)
    match a with
    | ⟨0, _⟩ => show win0_4.index t (0 : Fin 2) * 16 + 1 * q.val = win0_5.index t (1 : Fin 2) * 16 + 1 * q.val; omega
    | ⟨1, _⟩ => show win0_4.index t (1 : Fin 2) * 1 + 1 * k.val = k.val; omega
  have r3 : iblk0 V c 3 t (ix2 (0 : Fin 1) q)
      = V c main_v16 (ix2 (0 : Fin 1) ((((cfg0.win 5).blk t).view.emb (ix2 p q)) 1)) := by
    show V c main_v16 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * q.val = win0_5.index t (1 : Fin 2) * 16 + 1 * q.val; omega
  simp only [r0, r1, r2, r3, r4]

/-- An index of the result array is in point `t`'s block iff each coordinate is in the block's range. -/
theorem mem_blk (t : Fin cfg0.N) (i : S160000x16.Idx) :
    i ∈ ((cfg0.win 5).blk t).view.set ↔ ∀ a : Fin 2, win0_5.index t a * S2000x16.size a ≤ (i a).val
      ∧ (i a).val < win0_5.index t a * S2000x16.size a + S2000x16.size a := by
  show i ∈ ((View.whole main_v17).slice (win0_5.rect t)).set ↔ _
  rw [View.set_slice_whole, Rect.mem_set_unit]
  exact Iff.rfl

/-- Every node row lies in the block of the point numbered by the row's quotient by 2000. -/
theorem cover (i : S160000x16.Idx) :
    ∃ t : Fin cfg0.N, (cfg0.win 5).flush t = true ∧ i ∈ ((cfg0.win 5).blk t).view.set := by
  have hi0 : (i 0).val < 160000 := (i 0).isLt
  have hi1 : (i 1).val < 16 := (i 1).isLt
  have hN : (i 0).val / 2000 < grid0.N := by rw [N_0]; omega
  obtain ⟨-, -, -, -, -, -, -, -, -, -, e50, e51⟩ := idx ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 16 ≤ (i 1).val
      ∧ (i 1).val < win0_5.index ⟨(i 0).val / 2000, hN⟩ (1 : Fin 2) * 16 + 16
    rw [e51]; omega

/-- THE RESULT ARRAY of the first launch: the combine of the arrays as the launch finds them. -/
theorem final (c : Dev nD) :
    (dat0 V c).arrAt 5 cfg0.N = conv1 (V c main_v15) (V c main_arg0) (V c main_arg2) (V c main_arg4) (V c main_v16) :=
  (dat0 V c).arrAt_eq_of_cover 5 _ (fun t _ => flushed V c t) cover

end Cert.KernelIdeal.Conv1

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.Layers.lean ====
/-
  Dense layers on whole matrices, over the extended reals, generic in the sizes: the specification and its two
  readings.

  `denseT x W bias (r, j) = (∑ₖ x (r, k) · W (j, k)) + bias (0, j)`: the input times the transpose of the weight
  matrix stored output-major, plus a one-row bias. `relu x = max x 0` entrywise. A kernel body computes a layer by
  rounding both operands to a shorter format (the identity at the ideal values), transposing the weights, multiplying
  into a zero accumulator and adding the bias row repeated down the rows (`kernelLayer_eq`); a host program by a
  transpose, a product, and a bias vector broadcast to one row and down the rows (`hostLayer_eq`, whose bias is the
  vector viewed as one row).
-/
import proofs.«105413_j59897613910372_2_alg».proof.Proof.LibDenseT
import proofs.«105413_j59897613910372_2_alg».proof.Proof.LibHostRead

noncomputable section

open scoped BigOperators

namespace Cert.Layers

open Idealize.ShloMosaic Idealize.ShloMosaic.ValueIdx Cert.LibDenseT Cert.LibContractPlain

variable {A K B : Nat}

/-- A dense layer: input times transposed weights plus the bias row. -/
def denseT (x : (⟨2, ![A, K]⟩ : Shape).Idx → EReal) (W : (⟨2, ![B, K]⟩ : Shape).Idx → EReal)
    (bias : (⟨2, ![1, B]⟩ : Shape).Idx → EReal) : (⟨2, ![A, B]⟩ : Shape).Idx → EReal :=
  fun i => (∑ k : Fin K, x (ix2 (i 0) k) * W (ix2 (i 1) k)) + bias (ix2 (0 : Fin 1) (i 1))

/-- The rectifier, entrywise. -/
def relu {s : Shape} (x : s.Idx → EReal) : s.Idx → EReal := fun i => max (x i) (Ideal.ofBits .f32 0x00000000#32)

/-- A KERNEL BODY's dense layer is `denseT` of its operands. -/
theorem kernelLayer_eq (wf : DotDims.WF ⟨2, ![A, K]⟩ ⟨2, ![K, B]⟩ ⟨2, ![A, B]⟩ [1] [0] [0] [1] [] [])
    (x : FVec Ideal ⟨2, ![A, K]⟩ .f32) (W : FVec Ideal ⟨2, ![B, K]⟩ .f32) (bias : FVec Ideal ⟨2, ![1, B]⟩ .f32)
    (hx hW : FTy.bf16.bits < FTy.f32.bits)
    (hT : (⟨2, ![B, K]⟩ : Shape).Transposes [1, 0] ⟨2, ![K, B]⟩) (hb : (⟨2, ![1, B]⟩ : Shape).Broadcasts ⟨2, ![A, B]⟩) :
    addf (matmul (plainDims A K B wf) none (truncf .bf16 x hx) (transpose ⟨2, ![K, B]⟩ [1, 0] (truncf .bf16 W hW) hT)
        (constant ⟨2, ![A, B]⟩ .f32 0x00000000#32)) (broadcastTo ⟨2, ![A, B]⟩ bias hb)
      = denseT x W bias := by
  funext i
  obtain ⟨r, j, rfl⟩ : ∃ (r : Fin A) (j : Fin B), i = ix2 r j := ⟨i 0, i 1, eq_ix2 i⟩
  refine congrArg₂ (· + ·) ?_ ?_
  · exact matmulT_zero_apply A K B wf none _ W hT r j
  · exact rowDown_apply bias hb r j

/-- A kernel body's rectified dense layer. -/
theorem kernelReluLayer_eq (wf : DotDims.WF ⟨2, ![A, K]⟩ ⟨2, ![K, B]⟩ ⟨2, ![A, B]⟩ [1] [0] [0] [1] [] [])
    (x : FVec Ideal ⟨2, ![A, K]⟩ .f32) (W : FVec Ideal ⟨2, ![B, K]⟩ .f32) (bias : FVec Ideal ⟨2, ![1, B]⟩ .f32)
    (hx hW : FTy.bf16.bits < FTy.f32.bits)
    (hT : (⟨2, ![B, K]⟩ : Shape).Transposes [1, 0] ⟨2, ![K, B]⟩) (hb : (⟨2, ![1, B]⟩ : Shape).Broadcasts ⟨2, ![A, B]⟩) :
    maximumf (addf (matmul (plainDims A K B wf) none (truncf .bf16 x hx) (transpose ⟨2, ![K, B]⟩ [1, 0] (truncf .bf16 W hW) hT)
        (constant ⟨2, ![A, B]⟩ .f32 0x00000000#32)) (broadcastTo ⟨2, ![A, B]⟩ bias hb))
        (broadcast ⟨2, ![A, B]⟩ (Scalar.ofBits (F := Ideal) .f32 0x00000000#32))
      = relu (denseT x W bias) := by
  rw [kernelLayer_eq]
  rfl

/-- A HOST PROGRAM's dense layer is `denseT` of its operands, the bias vector viewed as one row. -/
theorem hostLayer_eq (wf : DotDims.WF ⟨2, ![A, K]⟩ ⟨2, ![K, B]⟩ ⟨2, ![A, B]⟩ [1] [0] [0] [1] [] [])
    (x : FVec Ideal ⟨2, ![A, K]⟩ .f32) (W : FVec Ideal ⟨2, ![B, K]⟩ .f32) (bias : FVec Ideal ⟨1, ![B]⟩ .f32)
    (hT : (⟨2, ![B, K]⟩ : Shape).Transposes [1, 0] ⟨2, ![K, B]⟩)
    (h1 : (⟨1, ![B]⟩ : Shape).BroadcastsInDim ⟨2, ![1, B]⟩ ![1])
    (h2 : (⟨2, ![1, B]⟩ : Shape).BroadcastsInDim ⟨2, ![A, B]⟩ ![0, 1])
    (hc : (⟨1, ![B]⟩ : Shape).ShapeCasts ⟨2, ![1, B]⟩) :
    addf (Host.dotGeneral (plainDims A K B wf) none x (transpose ⟨2, ![K, B]⟩ [1, 0] W hT))
        (broadcastInDim ⟨2, ![A, B]⟩ ![0, 1] h2 (broadcastInDim ⟨2, ![1, B]⟩ ![1] h1 bias))
      = denseT x W (shapeCast ⟨2, ![1, B]⟩ bias hc) := by
  funext i
  obtain ⟨r, j, rfl⟩ : ∃ (r : Fin A) (j : Fin B), i = ix2 r j := ⟨i 0, i 1, eq_ix2 i⟩
  refine congrArg₂ (· + ·) ?_ ?_
  · exact dotT_apply A K B wf none x W hT r j
  · exact (vecDown_apply bias h1 h2 r j).trans (vecAsRow_apply bias hc 0 j).symm

/-- A host program's rectified dense layer (the rectifier a maximum with a broadcast zero). -/
theorem hostReluLayer_eq (wf : DotDims.WF ⟨2, ![A, K]⟩ ⟨2, ![K, B]⟩ ⟨2, ![A, B]⟩ [1] [0] [0] [1] [] [])
    (x : FVec Ideal ⟨2, ![A, K]⟩ .f32) (W : FVec Ideal ⟨2, ![B, K]⟩ .f32) (bias : FVec Ideal ⟨1, ![B]⟩ .f32)
    (hT : (⟨2, ![B, K]⟩ : Shape).Transposes [1, 0] ⟨2, ![K, B]⟩)
    (h1 : (⟨1, ![B]⟩ : Shape).BroadcastsInDim ⟨2, ![1, B]⟩ ![1])
    (h2 : (⟨2, ![1, B]⟩ : Shape).BroadcastsInDim ⟨2, ![A, B]⟩ ![0, 1])
    (hc : (⟨1, ![B]⟩ : Shape).ShapeCasts ⟨2, ![1, B]⟩)
    (h0 : (⟨0, ![]⟩ : Shape).BroadcastsInDim ⟨2, ![A, B]⟩ ![]) :
    maximumf (addf (Host.dotGeneral (plainDims A K B wf) none x (transpose ⟨2, ![K, B]⟩ [1, 0] W hT))
        (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32))
      = relu (denseT x W (shapeCast ⟨2, ![1, B]⟩ bias hc)) := by
  rw [hostLayer_eq wf x W bias hT h1 h2 hc]
  funext i
  show max _ (broadcastInDim ⟨2, ![A, B]⟩ ![] h0 (constant (F := Ideal) ⟨0, ![]⟩ .f32 0x00000000#32) i) = max _ _
  rw [Cert.LibHR.bcastScalar_apply]
  rfl

end Cert.Layers

end
-- ==== Proof.Combine.lean ====
/-
  A graph convolution's combine on whole matrices, over the extended reals, generic in the sizes.

  `combine agg x Wr Ws bias (r, j) = (∑ₖ agg (r, k) · Wr (j, k)) + bias (0, j) + ∑ₖ x (r, k) · Ws (j, k)`: the
  aggregated messages and the node's own features, each times the transpose of a weight matrix stored
  output-major, with a one-row bias between. A host program computes it by two transposes, two products, and the
  bias vector broadcast to one row and down the rows (`hostCombine_eq`; the bias then is the vector viewed as one
  row); rectified, by a further maximum with a broadcast zero (`hostCombineRelu_eq`).
-/
import proofs.«105413_j59897613910372_2_alg».proof.Proof.Layers
import proofs.«105413_j59897613910372_2_alg».proof.Proof.LibLayout

noncomputable section

open scoped BigOperators

namespace Cert.Layers

open Idealize.ShloMosaic Idealize.ShloMosaic.ValueIdx Cert.LibDenseT Cert.LibContractPlain

variable {N K B : Nat}

/-- The combine of aggregated messages and own features. -/
def combine (agg x : (⟨2, ![N, K]⟩ : Shape).Idx → EReal) (Wr Ws : (⟨2, ![B, K]⟩ : Shape).Idx → EReal)
    (bias : (⟨2, ![1, B]⟩ : Shape).Idx → EReal) : (⟨2, ![N, B]⟩ : Shape).Idx → EReal :=
  fun i => (∑ k : Fin K, agg (ix2 (i 0) k) * Wr (ix2 (i 1) k)) + bias (ix2 (0 : Fin 1) (i 1))
    + ∑ k : Fin K, x (ix2 (i 0) k) * Ws (ix2 (i 1) k)

/-- A HOST PROGRAM's combine is `combine` of its operands, the bias vector viewed as one row. -/
theorem hostCombine_eq (wf : DotDims.WF ⟨2, ![N, K]⟩ ⟨2, ![K, B]⟩ ⟨2, ![N, B]⟩ [1] [0] [0] [1] [] [])
    (agg x : FVec Ideal ⟨2, ![N, K]⟩ .f32) (Wr Ws : FVec Ideal ⟨2, ![B, K]⟩ .f32) (bias : FVec Ideal ⟨1, ![B]⟩ .f32)
    (hTr hTs : (⟨2, ![B, K]⟩ : Shape).Transposes [1, 0] ⟨2, ![K, B]⟩)
    (h1 : (⟨1, ![B]⟩ : Shape).BroadcastsInDim ⟨2, ![1, B]⟩ ![1])
    (h2 : (⟨2, ![1, B]⟩ : Shape).BroadcastsInDim ⟨2, ![N, B]⟩ ![0, 1])
    (hc : (⟨1, ![B]⟩ : Shape).ShapeCasts ⟨2, ![1, B]⟩) :
    addf (addf (Host.dotGeneral (plainDims N K B wf) none agg (transpose ⟨2, ![K, B]⟩ [1, 0] Wr hTr))
          (broadcastInDim ⟨2, ![N, B]⟩ ![0, 1] h2 (broadcastInDim ⟨2, ![1, B]⟩ ![1] h1 bias)))
        (Host.dotGeneral (plainDims N K B wf) none x (transpose ⟨2, ![K, B]⟩ [1, 0] Ws hTs))
      = combine agg x Wr Ws (shapeCast ⟨2, ![1, B]⟩ bias hc) := by
  rw [hostLayer_eq wf agg Wr bias hTr h1 h2 hc]
  funext i
  obtain ⟨r, j, rfl⟩ : ∃ (r : Fin N) (j : Fin B), i = ix2 r j := ⟨i 0, i 1, eq_ix2 i⟩
  exact congrArg (denseT agg Wr (shapeCast ⟨2, ![1, B]⟩ bias hc) (ix2 r j) + ·) (dotT_apply N K B wf none x Ws hTs r j)

/-- A host program's rectified combine. -/
theorem hostCombineRelu_eq (wf : DotDims.WF ⟨2, ![N, K]⟩ ⟨2, ![K, B]⟩ ⟨2, ![N, B]⟩ [1] [0] [0] [1] [] [])
    (agg x : FVec Ideal ⟨2, ![N, K]⟩ .f32) (Wr Ws : FVec Ideal ⟨2, ![B, K]⟩ .f32) (bias : FVec Ideal ⟨1, ![B]⟩ .f32)
    (hTr hTs : (⟨2, ![B, K]⟩ : Shape).Transposes [1, 0] ⟨2, ![K, B]⟩)
    (h1 : (⟨1, ![B]⟩ : Shape).BroadcastsInDim ⟨2, ![1, B]⟩ ![1])
    (h2 : (⟨2, ![1, B]⟩ : Shape).BroadcastsInDim ⟨2, ![N, B]⟩ ![0, 1])
    (hc : (⟨1, ![B]⟩ : Shape).ShapeCasts ⟨2, ![1, B]⟩)
    (h0 : (⟨0, ![]⟩ : Shape).BroadcastsInDim ⟨2, ![N, B]⟩ ![]) :
    maximumf (addf (addf (Host.dotGeneral (plainDims N K B wf) none agg (transpose ⟨2, ![K, B]⟩ [1, 0] Wr hTr))
          (broadcastInDim ⟨2, ![N, B]⟩ ![0, 1] h2 (broadcastInDim ⟨2, ![1, B]⟩ ![1] h1 bias)))
        (Host.dotGeneral (plainDims N K B wf) none x (transpose ⟨2, ![K, B]⟩ [1, 0] Ws hTs)))
        (broadcastInDim ⟨2, ![N, B]⟩ ![] h0 (constant (F := Ideal) ⟨0, ![]⟩ .f32 0x00000000#32))
      = relu (combine agg x Wr Ws (shapeCast ⟨2, ![1, B]⟩ bias hc)) := by
  rw [hostCombine_eq wf agg x Wr Ws bias hTr hTs h1 h2 hc]
  funext i
  show max _ (broadcastInDim ⟨2, ![N, B]⟩ ![] h0 (constant (F := Ideal) ⟨0, ![]⟩ .f32 0x00000000#32) i) = max _ _
  rw [Cert.LibHR.bcastScalar_apply]
  rfl

/-- A layer computed output-major on transposed activations, transposed back, is the layer: entry `(b, j)` has the
    same terms with the factors in the other order, and the bias column's entry `j` is the bias row's. -/
theorem denseT_of_outputMajor {A : Nat} (g : (⟨2, ![A, K]⟩ : Shape).Idx → EReal) (W : (⟨2, ![B, K]⟩ : Shape).Idx → EReal)
    (bias : (⟨1, ![B]⟩ : Shape).Idx → EReal)
    (hg : (⟨2, ![A, K]⟩ : Shape).Transposes [1, 0] ⟨2, ![K, A]⟩) (ho : (⟨2, ![B, A]⟩ : Shape).Transposes [1, 0] ⟨2, ![A, B]⟩)
    (hcol : (⟨1, ![B]⟩ : Shape).ShapeCasts ⟨2, ![B, 1]⟩) (hrow : (⟨1, ![B]⟩ : Shape).ShapeCasts ⟨2, ![1, B]⟩) :
    transpose ⟨2, ![A, B]⟩ [1, 0]
        (fun i : (⟨2, ![B, A]⟩ : Shape).Idx =>
          max ((∑ k : Fin K, W (ix2 (i 0) k) * transpose ⟨2, ![K, A]⟩ [1, 0] g hg (ix2 k (i 1)))
            + shapeCast ⟨2, ![B, 1]⟩ bias hcol (ix2 (i 0) (0 : Fin 1))) (Ideal.ofBits .f32 0x00000000#32)) ho
      = relu (denseT g W (shapeCast ⟨2, ![1, B]⟩ bias hrow)) := by
  funext i
  obtain ⟨b, j, rfl⟩ : ∃ (b : Fin A) (j : Fin B), i = ix2 b j := ⟨i 0, i 1, eq_ix2 i⟩
  rw [transpose_ix2_apply]
  show max ((∑ k : Fin K, W (ix2 j k) * transpose ⟨2, ![K, A]⟩ [1, 0] g hg (ix2 k b))
      + shapeCast ⟨2, ![B, 1]⟩ bias hcol (ix2 j (0 : Fin 1))) (Ideal.ofBits .f32 0x00000000#32)
    = max ((∑ k : Fin K, g (ix2 b k) * W (ix2 j k)) + shapeCast ⟨2, ![1, B]⟩ bias hrow (ix2 (0 : Fin 1) j))
        (Ideal.ofBits .f32 0x00000000#32)
  rw [Cert.Attn.Layout.shapeCast_a_a1_apply, vecAsRow_apply]
  refine congrArg (fun s => max (s + bias (ix1 j)) (Ideal.ofBits .f32 0x00000000#32)) (Finset.sum_congr rfl fun k _ => ?_)
  rw [transpose_ix2_apply]
  exact mul_comm _ _

end Cert.Layers

end
-- ==== Proof.RefConv1.lean ====
/-
  The reference's value after its first rectifier is the first graph convolution's combine: its two products with
  transposed weight columns, its bias vector broadcast down the rows, and its maximum with a broadcast zero are the
  combine's sums, bias entry and rectifier, entry by entry.
-/
import proofs.«105413_j59897613910372_2_alg».proof.Proof.Gen.ReferenceIdeal.Read
import proofs.«105413_j59897613910372_2_alg».proof.Proof.Conv1Array
import proofs.«105413_j59897613910372_2_alg».proof.Proof.Combine

set_option maxRecDepth 16384

noncomputable section

open scoped BigOperators

namespace Cert.RefStages

open Cert.ReferenceIdeal Cert.ReferenceIdeal.Read
open Idealize.ShloMosaic Idealize.ShloMosaic.ValueIdx Cert.LibDenseT Cert.LibContractPlain

/-- After the first rectifier: the first combine of the first aggregate, the node features, the two weight columns
    and the bias vector viewed as a row. -/
theorem stage_v24 (x0 : (⟨S160000x1, .f32⟩ : BufTy).Contents (Elt Ideal)) (x1 : (⟨S5120000, .f32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x16 : (⟨S2x5120000, .i32⟩ : BufTy).Contents (Elt Ideal)) :
    val_main_v24 (F := Ideal) x0 x1 x2 x3 x4 x16
      = Cert.KernelIdeal.Conv1.conv1 (val_main_v15 (F := Ideal) x0 x1 x16) x0 x2 x4 (shapeCast Cert.KernelIdeal.S1x16 x3 Cert.KernelIdeal.Gen.shapeCasts_S16_S1x16) := by
  simp only [val_main_v24, val_main_v23, val_main_v22, val_main_v21, val_main_v20, val_main_v19, val_main_v18, val_main_v17,
    val_main_v16, val_main_call0_v0, val_main_call0_cst]
  rw [show dot_S160000x1_S1x16_S160000x16_1_0_0_1_n_n
      = plainDims 160000 1 16 dot_S160000x1_S1x16_S160000x16_1_0_0_1_n_n.wf from rfl]
  rw (config := { transparency := .default })
    [Cert.Layers.hostCombineRelu_eq _ _ _ _ _ _ _ _ _ _ Cert.KernelIdeal.Gen.shapeCasts_S16_S1x16 _]
  rfl

end Cert.RefStages

end
-- ==== Proof.Conv2Array.lean ====
import proofs.«105413_j59897613910372_2_alg».proof.Proof.Gen.KernelIdeal.Frame
import proofs.«105413_j59897613910372_2_alg».proof.Proof.Bodies
import Idealize.ShloMosaic.Lib.Pipeline.Value

set_option maxRecDepth 16384

noncomputable section

open scoped BigOperators

namespace Cert.KernelIdeal.Conv2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second graph convolution's combine on whole arrays: node `r`, the one output channel. -/
def conv2 (A X : S160000x16.Idx → EReal) (Wr Ws : S1x16.Idx → EReal) (b : S1x1.Idx → EReal) : S160000x1.Idx → EReal :=
  fun i => (∑ k : Fin 16, A (ix2 (i 0) k) * Wr (ix2 (i 1) k)) + b (ix2 (0 : Fin 1) (i 1))
      + ∑ k : Fin 16, X (ix2 (i 0) k) * Ws (ix2 (i 1) k)

theorem hz : (![0, 0] : Fin 2 → Nat) = fun _ => 0 := funext fun a => by fin_cases a <;> rfl

/-- The block index maps over the 80 grid points: the node-blocked windows take block `t` of 2000 rows; the weight
    rows and the bias are one block. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of the combine of the arrays as the launch finds them. -/
theorem flushed (c : Dev nD) (t : Fin cfg1.N) :
    (dat1 V c).flushed 5 t = ((cfg1.win 5).blk t).view.read (Elt Ideal)
      (conv2 (V c main_v30) (V c main_v17) (V c main_arg5) (V c main_arg7) (V c main_v31)) := by
  show (cfg1.win 5).cut (grid1.coords t) ((dat1 V c).after 5 t) = _
  rw [after1_5]
  unfold out1_5
  rw [View.canon_unit_zero hz]
  simp only [View.ld_unit_zero (S := S2000x16) hz, View.ld_unit_zero (S := S1x16) hz, View.ld_unit_zero (S := S1x1) hz]
  obtain ⟨e00, e01, e10, e11, e20, e21, e30, e31, e40, e41, e50, e51⟩ := idx t
  funext j
  obtain ⟨p, u, rfl⟩ : ∃ (p : Fin 2000) (u : Fin 1), j = ix2 p u := ⟨j 0, j 1, eq_ix2 j⟩
  show k1_pay1 (iblk1 V c 0 t) (iblk1 V c 1 t) (iblk1 V c 2 t) (iblk1 V c 4 t) (iblk1 V c 3 t) (ix2 p u)
    = conv2 (V c main_v30) (V c main_v17) (V c main_arg5) (V c main_arg7) (V c main_v31)
        (((cfg1.win 5).blk t).view.emb (ix2 p u))
  rw [Bodies.conv2_apply]
  unfold conv2
  have r0 : ∀ k : Fin 16, iblk1 V c 0 t (ix2 p k)
      = V c main_v30 (ix2 ((((cfg1.win 5).blk t).view.emb (ix2 p u)) 0) k) := fun k => by
    show V c main_v30 (((cfg1.win 0).blk t).view.emb (ix2 p k)) = _
    refine congrArg _ (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 16 + 1 * k.val = k.val; omega
  have r1 : ∀ k : Fin 16, iblk1 V c 1 t (ix2 p k)
      = V c main_v17 (ix2 ((((cfg1.win 5).blk t).view.emb (ix2 p u)) 0) k) := fun k => by
    show V c main_v17 (((cfg1.win 1).blk t).view.emb (ix2 p k)) = _
    refine congrArg _ (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 16 + 1 * k.val = k.val; omega
  have r2 : ∀ k : Fin 16, iblk1 V c 2 t (ix2 u k)
      = V c main_arg5 (ix2 ((((cfg1.win 5).blk t).view.emb (ix2 p u)) 1) k) := fun k => by
    show V c main_arg5 (((cfg1.win 2).blk t).view.emb (ix2 u k)) = _
    refine congrArg _ (funext fun a => Fin.ext ?_)
    match a with
    | ⟨0, _⟩ => show win1_2.index t (0 : Fin 2) * 1 + 1 * u.val = win1_5.index t (1 : Fin 2) * 1 + 1 * u.val; omega
    | ⟨1, _⟩ => show win1_2.index t (1 : Fin 2) * 16 + 1 * k.val = k.val; omega
  have r4 : ∀ k : Fin 16, iblk1 V c 4 t (ix2 u k)
      = V c main_arg7 (ix2 ((((cfg1.win 5).blk t).view.emb (ix2 p u)) 1) k) := fun k => by
    show V c main_arg7 (((cfg1.win 4).blk t).view.emb (ix2 u k)) = _
    refine congrArg _ (funext fun a => Fin.ext ?_)
    match a with
    | ⟨0, _⟩ => show win1_4.index t (0 : Fin 2) * 1 + 1 * u.val = win1_5.index t (1 : Fin 2) * 1 + 1 * u.val; omega
    | ⟨1, _⟩ => show win1_4.index t (1 : Fin 2) * 16 + 1 * k.val = k.val; omega
  have r3 : iblk1 V c 3 t (ix2 (0 : Fin 1) u)
      = V c main_v31 (ix2 (0 : Fin 1) ((((cfg1.win 5).blk t).view.emb (ix2 p u)) 1)) := by
    show V c main_v31 (((cfg1.win 3).blk t).view.emb (ix2 (0 : Fin 1) u)) = _
    refine congrArg _ (funext fun a => Fin.ext ?_)
    match a with
    | ⟨0, _⟩ => show win1_3.index t (0 : Fin 2) * 1 + 1 * 0 = 0; omega
    | ⟨1, _⟩ => show win1_3.index t (1 : Fin 2) * 1 + 1 * u.val = win1_5.index t (1 : Fin 2) * 1 + 1 * u.val; omega
  simp only [r0, r1, r2, r3, r4]

/-- An index of the result array is in point `t`'s block iff each coordinate is in the block's range. -/
theorem mem_blk (t : Fin cfg1.N) (i : S160000x1.Idx) :
    i ∈ ((cfg1.win 5).blk t).view.set ↔ ∀ a : Fin 2, win1_5.index t a * S2000x1.size a ≤ (i a).val
      ∧ (i a).val < win1_5.index t a * S2000x1.size a + S2000x1.size a := by
  show i ∈ ((View.whole main_v32).slice (win1_5.rect t)).set ↔ _
  rw [View.set_slice_whole, Rect.mem_set_unit]
  exact Iff.rfl

/-- Every node row lies in the block of the point numbered by the row's quotient by 2000. -/
theorem cover (i : S160000x1.Idx) :
    ∃ t : Fin cfg1.N, (cfg1.win 5).flush t = true ∧ i ∈ ((cfg1.win 5).blk t).view.set := by
  have hi0 : (i 0).val < 160000 := (i 0).isLt
  have hi1 : (i 1).val < 1 := (i 1).isLt
  have hN : (i 0).val / 2000 < grid1.N := by rw [N_1]; omega
  obtain ⟨-, -, -, -, -, -, -, -, -, -, e50, e51⟩ := idx ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hN⟩ (1 : Fin 2) * 1 ≤ (i 1).val
      ∧ (i 1).val < win1_5.index ⟨(i 0).val / 2000, hN⟩ (1 : Fin 2) * 1 + 1
    rw [e51]; omega

/-- THE RESULT ARRAY of the second launch: the combine of the arrays as the launch finds them. -/
theorem final (c : Dev nD) :
    (dat1 V c).arrAt 5 cfg1.N = conv2 (V c main_v30) (V c main_v17) (V c main_arg5) (V c main_arg7) (V c main_v31) :=
  (dat1 V c).arrAt_eq_of_cover 5 _ (fun t _ => flushed V c t) cover

end Cert.KernelIdeal.Conv2

end
-- ==== Proof.RefConv2.lean ====
/-
  The reference's value before its reshape is the second graph convolution's combine of the second aggregate and the
  first hidden features, entry by entry.
-/
import proofs.«105413_j59897613910372_2_alg».proof.Proof.Gen.ReferenceIdeal.Read
import proofs.«105413_j59897613910372_2_alg».proof.Proof.Conv2Array
import proofs.«105413_j59897613910372_2_alg».proof.Proof.Combine

set_option maxRecDepth 16384

noncomputable section

open scoped BigOperators

namespace Cert.RefStages

open Cert.ReferenceIdeal Cert.ReferenceIdeal.Read
open Idealize.ShloMosaic Idealize.ShloMosaic.ValueIdx Cert.LibDenseT Cert.LibContractPlain

/-- Before the reshape: the second combine of the second aggregate, the first hidden features, the two weight rows
    and the bias viewed as a row. -/
theorem stage_v45 (x0 : (⟨S160000x1, .f32⟩ : BufTy).Contents (Elt Ideal)) (x1 : (⟨S5120000, .f32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S1x16, .f32⟩ : BufTy).Contents (Elt Ideal)) (x6 : (⟨S1, .f32⟩ : BufTy).Contents (Elt Ideal)) (x7 : (⟨S1x16, .f32⟩ : BufTy).Contents (Elt Ideal)) (x16 : (⟨S2x5120000, .i32⟩ : BufTy).Contents (Elt Ideal)) :
    val_main_v45 (F := Ideal) x0 x1 x2 x3 x4 x5 x6 x7 x16
      = Cert.KernelIdeal.Conv2.conv2 (val_main_v37 (F := Ideal) x0 x1 x2 x3 x4 x16) (val_main_v24 (F := Ideal) x0 x1 x2 x3 x4 x16) x5 x7 (shapeCast Cert.KernelIdeal.S1x1 x6 Cert.KernelIdeal.Gen.shapeCasts_S1_S1x1) := by
  simp only [val_main_v45, val_main_v44, val_main_v43, val_main_v42, val_main_v41, val_main_v40, val_main_v39, val_main_v38]
  rw [show dot_S160000x16_S16x1_S160000x1_1_0_0_1_n_n
      = plainDims 160000 16 1 dot_S160000x16_S16x1_S160000x1_1_0_0_1_n_n.wf from rfl]
  rw (config := { transparency := .default })
    [Cert.Layers.hostCombine_eq _ _ _ _ _ _ _ _ _ _ Cert.KernelIdeal.Gen.shapeCasts_S1_S1x1]
  rfl

end Cert.RefStages

end
-- ==== Proof.Mlp1Array.lean ====
import proofs.«105413_j59897613910372_2_alg».proof.Proof.Gen.KernelIdeal.Frame
import proofs.«105413_j59897613910372_2_alg».proof.Proof.Bodies
import Idealize.ShloMosaic.Lib.Pipeline.Value

set_option maxRecDepth 16384

noncomputable section

open scoped BigOperators

namespace Cert.KernelIdeal.Mlp1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The first perceptron layer on whole arrays, computed transposed: output row `j`, graph `b`; the activations
    `gT` stored node-major, the bias a column. -/
def mlp1T (W : S4000x20000.Idx → EReal) (gT : S20000x8.Idx → EReal) (bias : S4000x1.Idx → EReal) : S4000x8.Idx → EReal :=
  fun i => max ((∑ k : Fin 20000, W (ix2 (i 0) k) * gT (ix2 k (i 1))) + bias (ix2 (i 0) (0 : Fin 1)))
      (Ideal.ofBits .f32 0x00000000#32)

theorem hz : (![0, 0] : Fin 2 → Nat) = fun _ => 0 := funext fun a => by fin_cases a <;> rfl

/-- The block index maps over the 100 grid points: the weights, the bias and the result take block `t` of 40 rows;
    the activations are one block. -/
theorem idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of the layer of the arrays as the launch finds them. -/
theorem flushed (c : Dev nD) (t : Fin cfg2.N) :
    (dat2 V c).flushed 3 t = ((cfg2.win 3).blk t).view.read (Elt Ideal)
      (mlp1T (V c main_arg8) (V c main_v34) (V c main_v35)) := by
  show (cfg2.win 3).cut (grid2.coords t) ((dat2 V c).after 3 t) = _
  rw [after2_3]
  unfold out2_3
  rw [View.canon_unit_zero hz]
  simp only [View.ld_unit_zero (S := S40x20000) hz, View.ld_unit_zero (S := S20000x8) hz, View.ld_unit_zero (S := S40x1) hz]
  obtain ⟨e00, e01, e10, e11, e20, e21, e30, e31⟩ := idx t
  funext j
  obtain ⟨p, b, rfl⟩ : ∃ (p : Fin 40) (b : Fin 8), j = ix2 p b := ⟨j 0, j 1, eq_ix2 j⟩
  show k2_pay1 (iblk2 V c 0 t) (iblk2 V c 1 t) (iblk2 V c 2 t) (ix2 p b)
    = mlp1T (V c main_arg8) (V c main_v34) (V c main_v35) (((cfg2.win 3).blk t).view.emb (ix2 p b))
  rw [Bodies.mlp1_apply]
  unfold mlp1T
  have r0 : ∀ k : Fin 20000, iblk2 V c 0 t (ix2 p k)
      = V c main_arg8 (ix2 ((((cfg2.win 3).blk t).view.emb (ix2 p b)) 0) k) := fun k => by
    show V c main_arg8 (((cfg2.win 0).blk t).view.emb (ix2 p k)) = _
    refine congrArg _ (funext fun a => Fin.ext ?_)
    match a with
    | ⟨0, _⟩ => show win2_0.index t (0 : Fin 2) * 40 + 1 * p.val = win2_3.index t (0 : Fin 2) * 40 + 1 * p.val; omega
    | ⟨1, _⟩ => show win2_0.index t (1 : Fin 2) * 20000 + 1 * k.val = k.val; omega
  have r1 : ∀ k : Fin 20000, iblk2 V c 1 t (ix2 k b)
      = V c main_v34 (ix2 k ((((cfg2.win 3).blk t).view.emb (ix2 p b)) 1)) := fun k => by
    show V c main_v34 (((cfg2.win 1).blk t).view.emb (ix2 k b)) = _
    refine congrArg _ (funext fun a => Fin.ext ?_)
    match a with
    | ⟨0, _⟩ => show win2_1.index t (0 : Fin 2) * 20000 + 1 * k.val = k.val; omega
    | ⟨1, _⟩ => show win2_1.index t (1 : Fin 2) * 8 + 1 * b.val = win2_3.index t (1 : Fin 2) * 8 + 1 * b.val; omega
  have r2 : iblk2 V c 2 t (ix2 p (0 : Fin 1))
      = V c main_v35 (ix2 ((((cfg2.win 3).blk t).view.emb (ix2 p b)) 0) (0 : Fin 1)) := by
    show V c main_v35 (((cfg2.win 2).blk t).view.emb (ix2 p (0 : Fin 1))) = _
    refine congrArg _ (funext fun a => Fin.ext ?_)
    match a with
    | ⟨0, _⟩ => show win2_2.index t (0 : Fin 2) * 40 + 1 * p.val = win2_3.index t (0 : Fin 2) * 40 + 1 * p.val; omega
    | ⟨1, _⟩ => show win2_2.index t (1 : Fin 2) * 1 + 1 * 0 = 0; omega
  simp only [r0, r1, r2]

/-- An index of the result array is in point `t`'s block iff each coordinate is in the block's range. -/
theorem mem_blk (t : Fin cfg2.N) (i : S4000x8.Idx) :
    i ∈ ((cfg2.win 3).blk t).view.set ↔ ∀ a : Fin 2, win2_3.index t a * S40x8.size a ≤ (i a).val
      ∧ (i a).val < win2_3.index t a * S40x8.size a + S40x8.size a := by
  show i ∈ ((View.whole main_v36).slice (win2_3.rect t)).set ↔ _
  rw [View.set_slice_whole, Rect.mem_set_unit]
  exact Iff.rfl

/-- Every output row lies in the block of the point numbered by the row's quotient by 40. -/
theorem cover (i : S4000x8.Idx) :
    ∃ t : Fin cfg2.N, (cfg2.win 3).flush t = true ∧ i ∈ ((cfg2.win 3).blk t).view.set := by
  have hi0 : (i 0).val < 4000 := (i 0).isLt
  have hi1 : (i 1).val < 8 := (i 1).isLt
  have hN : (i 0).val / 40 < grid2.N := by rw [N_2]; omega
  obtain ⟨-, -, -, -, -, -, e30, e31⟩ := idx ⟨(i 0).val / 40, hN⟩
  refine ⟨⟨(i 0).val / 40, hN⟩, flush2_3 _, ?_⟩
  rw [mem_blk]
  intro a
  match a with
  | ⟨0, _⟩ =>
    show win2_3.index ⟨(i 0).val / 40, hN⟩ (0 : Fin 2) * 40 ≤ (i 0).val
      ∧ (i 0).val < win2_3.index ⟨(i 0).val / 40, hN⟩ (0 : Fin 2) * 40 + 40
    rw [e30]; show (i 0).val / 40 * 40 ≤ (i 0).val ∧ (i 0).val < (i 0).val / 40 * 40 + 40; omega
  | ⟨1, _⟩ =>
    show win2_3.index ⟨(i 0).val / 40, hN⟩ (1 : Fin 2) * 8 ≤ (i 1).val
      ∧ (i 1).val < win2_3.index ⟨(i 0).val / 40, hN⟩ (1 : Fin 2) * 8 + 8
    rw [e31]; omega

/-- THE RESULT ARRAY of the third launch: the layer of the arrays as the launch finds them. -/
theorem final (c : Dev nD) :
    (dat2 V c).arrAt 3 cfg2.N = mlp1T (V c main_arg8) (V c main_v34) (V c main_v35) :=
  (dat2 V c).arrAt_eq_of_cover 3 _ (fun t _ => flushed V c t) cover

end Cert.KernelIdeal.Mlp1

end
-- ==== Proof.RefMlp1.lean ====
/-
  The reference's first rectified perceptron layer is the transpose of the layer computed output-major on transposed
  activations: the two sums have the same terms with the factors in the other order.
-/
import proofs.«105413_j59897613910372_2_alg».proof.Proof.Gen.ReferenceIdeal.Read
import proofs.«105413_j59897613910372_2_alg».proof.Proof.Mlp1Array
import proofs.«105413_j59897613910372_2_alg».proof.Proof.Combine

set_option maxRecDepth 16384

noncomputable section

open scoped BigOperators

namespace Cert.RefStages

open Cert.ReferenceIdeal Cert.ReferenceIdeal.Read
open Idealize.ShloMosaic Idealize.ShloMosaic.ValueIdx Cert.LibDenseT Cert.LibContractPlain

/-- The first rectified perceptron layer is the transpose of the layer computed output-major: entry `(b, j)` sums,
    over the 20000 nodes of graph `b`, the node's value times weight `(j, k)`, in either order of the factors. -/
theorem stage_v52 (x0 : (⟨S160000x1, .f32⟩ : BufTy).Contents (Elt Ideal)) (x1 : (⟨S5120000, .f32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S1x16, .f32⟩ : BufTy).Contents (Elt Ideal)) (x6 : (⟨S1, .f32⟩ : BufTy).Contents (Elt Ideal)) (x7 : (⟨S1x16, .f32⟩ : BufTy).Contents (Elt Ideal)) (x8 : (⟨S4000x20000, .f32⟩ : BufTy).Contents (Elt Ideal)) (x9 : (⟨S4000, .f32⟩ : BufTy).Contents (Elt Ideal)) (x16 : (⟨S2x5120000, .i32⟩ : BufTy).Contents (Elt Ideal)) :
    transpose Cert.KernelIdeal.S8x4000 [1, 0]
        (Cert.KernelIdeal.Mlp1.mlp1T x8 (transpose Cert.KernelIdeal.S20000x8 [1, 0] (val_main_v46 (F := Ideal) x0 x1 x2 x3 x4 x5 x6 x7 x16) Cert.KernelIdeal.Gen.transposes_S8x20000_S20000x8_1_0)
          (shapeCast Cert.KernelIdeal.S4000x1 x9 Cert.KernelIdeal.Gen.shapeCasts_S4000_S4000x1))
        Cert.KernelIdeal.Gen.transposes_S4000x8_S8x4000_1_0
      = val_main_v52 (F := Ideal) x0 x1 x2 x3 x4 x5 x6 x7 x8 x9 x16 := by
  simp only [val_main_v52, val_main_v51, val_main_v50, val_main_v49, val_main_v48, val_main_v47, val_main_call1_v0,
    val_main_call1_cst]
  rw [show dot_S8x20000_S20000x4000_S8x4000_1_0_0_1_n_n
      = plainDims 8 20000 4000 dot_S8x20000_S20000x4000_S8x4000_1_0_0_1_n_n.wf from rfl]
  rw (config := { transparency := .default })
    [Cert.Layers.hostReluLayer_eq _ _ _ _ _ _ _ (by decide : (⟨1, ![4000]⟩ : Shape).ShapeCasts ⟨2, ![1, 4000]⟩) _]
  exact Cert.Layers.denseT_of_outputMajor (A := 8) (K := 20000) (B := 4000) (val_main_v46 (F := Ideal) x0 x1 x2 x3 x4 x5 x6 x7 x16) x8 x9 _ _ _ _

end Cert.RefStages

end
-- ==== Proof.LibLogSoftmax.lean ====
/-
  The logarithm of a soft maximum along the rows of an `a × b` matrix, over the extended reals, generic in the sizes.

  `logSoftmax x (r, j) = s (r, j) − log (∑ₖ exp (s (r, k)))` where `s (r, j) = x (r, j) − max_k x (r, k)` and the row
  maximum is folded from `−∞`. Two programs compute it:
  * a kernel body, by vector operations: a maximum reduction of the last axis from `−∞`, viewed as a column and
    repeated along the rows; a subtraction; an exponential; a sum reduction of the last axis; a logarithm of the
    column; a subtraction (`kernel_eq`);
  * a host program, by StableHLO operations: a reduce with a maximum body from `−∞`, a further maximum with `−∞`
    (which changes nothing: the fold already starts there), broadcasts, subtract, exponential, a reduce with an add
    body from `0`, logarithm, subtract (`host_eq`).
-/
import proofs.«105413_j59897613910372_2_alg».proof.Proof.LibLayout
import proofs.«105413_j59897613910372_2_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibLogSoftmax

open Idealize.ShloMosaic Idealize.ShloMosaic.ValueIdx

variable {a b : Nat}

/-- Row `r`'s maximum, folded from `−∞`. -/
def rowMax (x : (⟨2, ![a, b]⟩ : Shape).Idx → EReal) (r : Fin a) : EReal :=
  (Finset.univ : Finset (Fin b)).fold max (Ideal.ofBits .f32 0xFF800000#32) (fun j => x (ix2 r j))

/-- The entry less its row's maximum. -/
def shifted (x : (⟨2, ![a, b]⟩ : Shape).Idx → EReal) (r : Fin a) (j : Fin b) : EReal := x (ix2 r j) - rowMax x r

/-- The shifted entry less the logarithm of the row's sum of exponentials of shifted entries. -/
def logSoftmax (x : (⟨2, ![a, b]⟩ : Shape).Idx → EReal) : (⟨2, ![a, b]⟩ : Shape).Idx → EReal :=
  fun i => shifted x (i 0) (i 1) - Ideal.log (∑ k : Fin b, Ideal.exp (shifted x (i 0) k))

/-- The reduced index `r` with the last coordinate `k` put back is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A column repeated along the rows reads, at `(r, j)`, the column's entry of row `r`. -/
theorem colAcross_apply {α : Type} (v : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h v (ix2 r j) = v (ix2 r (0 : Fin 1)) :=
  broadcastInDim_apply _ h v (ix2 r j) (ix2 r (0 : Fin 1)) (fun c => match c with
    | ⟨0, _⟩ => by
      show r.val = if a = 1 then 0 else r.val
      split
      · have := r.isLt; omega
      · rfl
    | ⟨1, _⟩ => by
      show 0 = if (1 : Nat) = 1 then 0 else j.val
      rw [if_pos rfl])

/-! ## The kernel's reading -/

/-- The kernel's maximum reduction of the last axis from `−∞`, at row `r`. -/
theorem kernelRowMax_apply (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ x 0xFF800000#32 h hφ hacc (ix1 r) = rowMax x r := by
  rw [Ideal.multiReduction_maximumf_single]
  have e : (x ∘ h.lift (ix1 r)) = fun k : Fin b => x (ix2 r k) := funext fun k => congrArg x (lift_last h r k)
  rw [e]
  rfl

/-- The kernel's sum reduction of the last axis, at row `r`. -/
theorem kernelRowSum_apply (y : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ y 0x00000000#32 h hφ hacc (ix1 r) = ∑ k : Fin b, y (ix2 r k) := by
  rw [Ideal.multiReduction_add_single]
  exact Finset.sum_congr rfl fun k _ => congrArg y (lift_last h r k)

/-- A per-row value viewed as a column and repeated along the rows reads, at `(r, j)`, the value of row `r`. -/
theorem perRow_apply {α : Type} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (j : Fin b) :
    broadcastTo ⟨2, ![a, b]⟩ (shapeCast ⟨2, ![a, 1]⟩ v hc) hb (ix2 r j) = v (ix1 r) :=
  (Cert.Attn.Layout.broadcastTo_a1_ab_apply _ hb r j).trans (Cert.Attn.Layout.shapeCast_a_a1_apply v hc r 0)

/-- THE KERNEL'S vector operations compute the logarithm of the soft maximum along the rows. -/
theorem kernel_eq (x : FVec Ideal ⟨2, ![a, b]⟩ .f32) (h : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) :
    subf (subf x (broadcastTo ⟨2, ![a, b]⟩ (shapeCast ⟨2, ![a, 1]⟩ (multiReduction .maximumf [1] ⟨1, ![a]⟩ x 0xFF800000#32 h hφ hmax) hc) hb))
      (broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩ (multiReduction .maximumf [1] ⟨1, ![a]⟩ x 0xFF800000#32 h hφ hmax) hc) hb)))
          0x00000000#32 h hφ hadd) hc)) hb)
      = logSoftmax x := by
  have hs : ∀ (r : Fin a) (j : Fin b),
      subf x (broadcastTo ⟨2, ![a, b]⟩ (shapeCast ⟨2, ![a, 1]⟩ (multiReduction .maximumf [1] ⟨1, ![a]⟩ x 0xFF800000#32 h hφ hmax) hc) hb) (ix2 r j)
        = shifted x r j := fun r j => by
    show x (ix2 r j) - _ = x (ix2 r j) - rowMax x r
    rw [perRow_apply, kernelRowMax_apply]
  funext i
  obtain ⟨r, j, rfl⟩ : ∃ (r : Fin a) (j : Fin b), i = ix2 r j := ⟨i 0, i 1, eq_ix2 i⟩
  show _ - _ = shifted x r j - Ideal.log (∑ k : Fin b, Ideal.exp (shifted x r k))
  rw [hs r j, Cert.Attn.Layout.broadcastTo_a1_ab_apply]
  show shifted x r j - Ideal.log (shapeCast ⟨2, ![a, 1]⟩ _ hc (ix2 r (0 : Fin 1))) = _
  rw [Cert.Attn.Layout.shapeCast_a_a1_apply, kernelRowSum_apply]
  refine congrArg (fun s => shifted x r j - Ideal.log s) (Finset.sum_congr rfl fun k _ => ?_)
  show Ideal.exp _ = _
  rw [hs r k]

/-! ## The host's reading -/

/-- The host's reduce with a maximum body over the last axis from `−∞`, at row `r`. -/
theorem hostRowMax_apply (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduce FloatOps.maximumf x (constant (F := Ideal) ⟨0, ![]⟩ .f32 0xFF800000#32) h' hu (ix1 r) = rowMax x r := by
  rw [Host.reduce_eq_fold_single FloatOps.maximumf x _ h' h hu]
  have e : (x ∘ h.lift (ix1 r)) = fun k : Fin b => x (ix2 r k) := funext fun k => congrArg x (lift_last h r k)
  rw [e]
  rfl

/-- A further maximum with `−∞` leaves the row maximum as it is: the fold starts at `−∞`. -/
theorem max_negInf_rowMax (x : (⟨2, ![a, b]⟩ : Shape).Idx → EReal) (r : Fin a) :
    max (Ideal.ofBits .f32 0xFF800000#32) (rowMax x r) = rowMax x r :=
  max_eq_right ((Finset.le_fold_max _).mpr (Or.inl le_rfl))

/-- The host's reduce with an add body over the last axis from `0`, at row `r`. -/
theorem hostRowSum_apply (y : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduceAdd y (constant (F := Ideal) ⟨0, ![]⟩ .f32 0x00000000#32) h' hu (ix1 r) = ∑ k : Fin b, y (ix2 r k) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg y (lift_last h r k)

/-- THE HOST'S operations compute the logarithm of the soft maximum along the rows. -/
theorem host_eq (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    subf (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu)))))
      (broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu))))))
          (constant (F := Ideal) ⟨0, ![]⟩ .f32 0x00000000#32) h' hu))))
      = logSoftmax x := by
  have hs : ∀ (r : Fin a) (j : Fin b),
      subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu)))) (ix2 r j)
        = shifted x r j := fun r j => by
    show x (ix2 r j) - _ = x (ix2 r j) - rowMax x r
    rw [colAcross_apply, Cert.LibHR.bcastCol_apply]
    show x (ix2 r j) - max _ _ = _
    rw [Cert.LibHR.bcastScalar_apply, hostRowMax_apply x h' h hu r]
    exact congrArg (x (ix2 r j) - ·) (max_negInf_rowMax x r)
  funext i
  obtain ⟨r, j, rfl⟩ : ∃ (r : Fin a) (j : Fin b), i = ix2 r j := ⟨i 0, i 1, eq_ix2 i⟩
  show _ - _ = shifted x r j - Ideal.log (∑ k : Fin b, Ideal.exp (shifted x r k))
  rw [hs r j, colAcross_apply]
  show shifted x r j - Ideal.log _ = _
  rw [Cert.LibHR.bcastCol_apply, hostRowSum_apply _ h' h hu r]
  refine congrArg (fun s => shifted x r j - Ideal.log s) (Finset.sum_congr rfl fun k _ => ?_)
  show Ideal.exp _ = _
  rw [hs r k]

end Cert.LibLogSoftmax

end
-- ==== Proof.HeadArray.lean ====
import proofs.«105413_j59897613910372_2_alg».proof.Proof.Gen.KernelIdeal.Frame
import proofs.«105413_j59897613910372_2_alg».proof.Proof.Layers
import proofs.«105413_j59897613910372_2_alg».proof.Proof.LibLogSoftmax
import Idealize.ShloMosaic.Lib.Pipeline.Value

set_option maxRecDepth 16384

noncomputable section

open scoped BigOperators

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat Cfg Window)

open Cert.LibContractPlain

variable (V : (c : Dev nD) → (b : Ref sig .tc) → Buf (Elt Ideal) ((c : Thread nD τ).loc b))

/-- The last three perceptron layers (two rectified) and the logarithm of the soft maximum along each graph's ten
    scores, on whole arrays. -/
def head (h1 : S8x4000.Idx → EReal) (W2 : S800x4000.Idx → EReal) (b2 : S1x800.Idx → EReal) (W3 : S160x800.Idx → EReal)
    (b3 : S1x160.Idx → EReal) (W4 : S10x160.Idx → EReal) (b4 : S1x10.Idx → EReal) : S8x10.Idx → EReal :=
  Cert.LibLogSoftmax.logSoftmax
    (Cert.Layers.denseT (Cert.Layers.relu (Cert.Layers.denseT (Cert.Layers.relu (Cert.Layers.denseT h1 W2 b2)) W3 b3)) W4 b4)

/-- The body's arithmetic is that function of its seven loaded arrays. -/
theorem body_eq (x0 : Vec Ideal S8x4000 .f32) (x1 : Vec Ideal S800x4000 .f32) (x2 : Vec Ideal S1x800 .f32)
    (x3 : Vec Ideal S160x800 .f32) (x4 : Vec Ideal S1x160 .f32) (x5 : Vec Ideal S10x160 .f32) (x6 : Vec Ideal S1x10 .f32) :
    k3_pay1 (F := Ideal) (k3_pay2 x0 x1 x2 x3 x4 x5 x6) (k3_pay3 x0 x1 x2 x3 x4 x5 x6) = head x0 x1 x2 x3 x4 x5 x6 := by
  unfold k3_pay1 k3_pay3 k3_pay2 head
  simp only [shapeCast_self]
  rw [show dot_S8x4000_S4000x800_S8x800_1_0_0_1_n_n = plainDims 8 4000 800 dot_S8x4000_S4000x800_S8x800_1_0_0_1_n_n.wf from rfl,
    show dot_S8x800_S800x160_S8x160_1_0_0_1_n_n = plainDims 8 800 160 dot_S8x800_S800x160_S8x160_1_0_0_1_n_n.wf from rfl,
    show dot_S8x160_S160x10_S8x10_1_0_0_1_n_n = plainDims 8 160 10 dot_S8x160_S160x10_S8x10_1_0_0_1_n_n.wf from rfl]
  rw (config := { transparency := .default }) [Cert.Layers.kernelReluLayer_eq, Cert.Layers.kernelReluLayer_eq,
    Cert.Layers.kernelLayer_eq]
  exact Cert.LibLogSoftmax.kernel_eq _ reduces_S8x10_S8 (.inl rfl) rfl rfl shapeCasts_S8_S8x1 broadcasts_S8x1_S8x10

theorem hz : (![0, 0] : Fin 2 → Nat) = fun _ => 0 := funext fun a => by fin_cases a <;> rfl

/-- The one grid point's block index maps: every window is one block at the origin. -/
theorem idx : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Window 0's one block is its whole array. -/
theorem whole0 (c : Dev nD) (t : Fin cfg3.N) : iblk3 V c 0 t = V c main_v37 := by
  obtain ⟨e00, e01, e10, e11, e20, e21, e30, e31, e40, e41, e50, e51, e60, e61, e70, e71⟩ := idx t
  funext y
  show V c main_v37 (((cfg3.win 0).blk t).view.emb y) = V c main_v37 y
  refine congrArg _ (funext fun a => Fin.ext ?_)
  match a with
  | ⟨0, _⟩ => show win3_0.index t (0 : Fin 2) * 8 + 1 * (y 0).val = (y 0).val; omega
  | ⟨1, _⟩ => show win3_0.index t (1 : Fin 2) * 4000 + 1 * (y 1).val = (y 1).val; omega

/-- Window 1's one block is its whole array. -/
theorem whole1 (c : Dev nD) (t : Fin cfg3.N) : iblk3 V c 1 t = V c main_arg10 := by
  obtain ⟨e00, e01, e10, e11, e20, e21, e30, e31, e40, e41, e50, e51, e60, e61, e70, e71⟩ := idx t
  funext y
  show V c main_arg10 (((cfg3.win 1).blk t).view.emb y) = V c main_arg10 y
  refine congrArg _ (funext fun a => Fin.ext ?_)
  match a with
  | ⟨0, _⟩ => show win3_1.index t (0 : Fin 2) * 800 + 1 * (y 0).val = (y 0).val; omega
  | ⟨1, _⟩ => show win3_1.index t (1 : Fin 2) * 4000 + 1 * (y 1).val = (y 1).val; omega

/-- Window 2's one block is its whole array. -/
theorem whole2 (c : Dev nD) (t : Fin cfg3.N) : iblk3 V c 2 t = V c main_v38 := by
  obtain ⟨e00, e01, e10, e11, e20, e21, e30, e31, e40, e41, e50, e51, e60, e61, e70, e71⟩ := idx t
  funext y
  show V c main_v38 (((cfg3.win 2).blk t).view.emb y) = V c main_v38 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 800 + 1 * (y 1).val = (y 1).val; omega

/-- Window 3's one block is its whole array. -/
theorem whole3 (c : Dev nD) (t : Fin cfg3.N) : iblk3 V c 3 t = V c main_arg12 := by
  obtain ⟨e00, e01, e10, e11, e20, e21, e30, e31, e40, e41, e50, e51, e60, e61, e70, e71⟩ := idx t
  funext y
  show V c main_arg12 (((cfg3.win 3).blk t).view.emb y) = V c main_arg12 y
  refine congrArg _ (funext fun a => Fin.ext ?_)
  match a with
  | ⟨0, _⟩ => show win3_3.index t (0 : Fin 2) * 160 + 1 * (y 0).val = (y 0).val; omega
  | ⟨1, _⟩ => show win3_3.index t (1 : Fin 2) * 800 + 1 * (y 1).val = (y 1).val; omega

/-- Window 4's one block is its whole array. -/
theorem whole4 (c : Dev nD) (t : Fin cfg3.N) : iblk3 V c 4 t = V c main_v39 := by
  obtain ⟨e00, e01, e10, e11, e20, e21, e30, e31, e40, e41, e50, e51, e60, e61, e70, e71⟩ := idx t
  funext y
  show V c main_v39 (((cfg3.win 4).blk t).view.emb y) = V c main_v39 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 160 + 1 * (y 1).val = (y 1).val; omega

/-- Window 5's one block is its whole array. -/
theorem whole5 (c : Dev nD) (t : Fin cfg3.N) : iblk3 V c 5 t = V c main_arg14 := by
  obtain ⟨e00, e01, e10, e11, e20, e21, e30, e31, e40, e41, e50, e51, e60, e61, e70, e71⟩ := idx t
  funext y
  show V c main_arg14 (((cfg3.win 5).blk t).view.emb y) = V c main_arg14 y
  refine congrArg _ (funext fun a => Fin.ext ?_)
  match a with
  | ⟨0, _⟩ => show win3_5.index t (0 : Fin 2) * 10 + 1 * (y 0).val = (y 0).val; omega
  | ⟨1, _⟩ => show win3_5.index t (1 : Fin 2) * 160 + 1 * (y 1).val = (y 1).val; omega

/-- Window 6's one block is its whole array. -/
theorem whole6 (c : Dev nD) (t : Fin cfg3.N) : iblk3 V c 6 t = V c main_v40 := by
  obtain ⟨e00, e01, e10, e11, e20, e21, e30, e31, e40, e41, e50, e51, e60, e61, e70, e71⟩ := idx t
  funext y
  show V c main_v40 (((cfg3.win 6).blk t).view.emb y) = V c main_v40 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 10 + 1 * (y 1).val = (y 1).val; omega

/-- What the one grid point writes back is the head of the arrays as the launch finds them. -/
theorem flushed (c : Dev nD) (t : Fin cfg3.N) :
    (dat3 V c).flushed 7 t = ((cfg3.win 7).blk t).view.read (Elt Ideal) (head (V c main_v37) (V c main_arg10) (V c main_v38) (V c main_arg12) (V c main_v39) (V c main_arg14) (V c main_v40)) := by
  show (cfg3.win 7).cut (grid3.coords t) ((dat3 V c).after 7 t) = _
  rw [after3_7]
  unfold out3_7
  rw [View.canon_unit_zero hz]
  simp only [View.ld_unit_zero (S := S8x4000) hz, View.ld_unit_zero (S := S800x4000) hz, View.ld_unit_zero (S := S1x800) hz,
    View.ld_unit_zero (S := S160x800) hz, View.ld_unit_zero (S := S1x160) hz, View.ld_unit_zero (S := S10x160) hz,
    View.ld_unit_zero (S := S1x10) hz]
  rw [whole0 V c t, whole1 V c t, whole2 V c t, whole3 V c t, whole4 V c t, whole5 V c t, whole6 V c t, body_eq]
  obtain ⟨-, -, -, -, -, -, -, -, -, -, -, -, -, -, e70, e71⟩ := idx t
  funext j
  show head (V c main_v37) (V c main_arg10) (V c main_v38) (V c main_arg12) (V c main_v39) (V c main_arg14) (V c main_v40) j = head (V c main_v37) (V c main_arg10) (V c main_v38) (V c main_arg12) (V c main_v39) (V c main_arg14) (V c main_v40) (((cfg3.win 7).blk t).view.emb j)
  refine congrArg _ (funext fun a => Fin.ext ?_)
  match a with
  | ⟨0, _⟩ => show (j 0).val = win3_7.index t (0 : Fin 2) * 8 + 1 * (j 0).val; omega
  | ⟨1, _⟩ => show (j 1).val = win3_7.index t (1 : Fin 2) * 10 + 1 * (j 1).val; omega

/-- An index of the result array is in the block iff each coordinate is in the block's range. -/
theorem mem_blk (t : Fin cfg3.N) (i : S8x10.Idx) :
    i ∈ ((cfg3.win 7).blk t).view.set ↔ ∀ a : Fin 2, win3_7.index t a * S8x10.size a ≤ (i a).val
      ∧ (i a).val < win3_7.index t a * S8x10.size a + S8x10.size a := by
  show i ∈ ((View.whole main_v41).slice (win3_7.rect t)).set ↔ _
  rw [View.set_slice_whole, Rect.mem_set_unit]
  exact Iff.rfl

/-- The one block is the whole result array. -/
theorem cover (i : S8x10.Idx) :
    ∃ t : Fin cfg3.N, (cfg3.win 7).flush t = true ∧ i ∈ ((cfg3.win 7).blk t).view.set := by
  have hi0 : (i 0).val < 8 := (i 0).isLt
  have hi1 : (i 1).val < 10 := (i 1).isLt
  obtain ⟨-, -, -, -, -, -, -, -, -, -, -, -, -, -, e70, e71⟩ := idx t3_0
  refine ⟨t3_0, flush3_7 _, ?_⟩
  rw [mem_blk]
  intro a
  match a with
  | ⟨0, _⟩ =>
    show win3_7.index t3_0 (0 : Fin 2) * 8 ≤ (i 0).val ∧ (i 0).val < win3_7.index t3_0 (0 : Fin 2) * 8 + 8
    rw [e70]; omega
  | ⟨1, _⟩ =>
    show win3_7.index t3_0 (1 : Fin 2) * 10 ≤ (i 1).val ∧ (i 1).val < win3_7.index t3_0 (1 : Fin 2) * 10 + 10
    rw [e71]; omega

/-- THE RESULT ARRAY of the last launch: the head of the arrays as the launch finds them. -/
theorem final (c : Dev nD) : (dat3 V c).arrAt 7 cfg3.N = head (V c main_v37) (V c main_arg10) (V c main_v38) (V c main_arg12) (V c main_v39) (V c main_arg14) (V c main_v40) :=
  (dat3 V c).arrAt_eq_of_cover 7 _ (fun t _ => flushed V c t) cover

end Cert.KernelIdeal.Head

end
-- ==== Proof.RefHead.lean ====
/-
  The reference's result is the head of its first perceptron layer's output: two rectified layers, a layer, and the
  logarithm of the soft maximum along the rows, each host operation group being the layer's specification.
-/
import proofs.«105413_j59897613910372_2_alg».proof.Proof.Gen.ReferenceIdeal.Read
import proofs.«105413_j59897613910372_2_alg».proof.Proof.HeadArray

set_option maxRecDepth 16384

noncomputable section

open scoped BigOperators

namespace Cert.RefStages

open Cert.ReferenceIdeal Cert.ReferenceIdeal.Read
open Idealize.ShloMosaic Idealize.ShloMosaic.ValueIdx Cert.LibDenseT Cert.LibContractPlain

/-- The result: the head of the first perceptron layer's output, the remaining weights, and the bias vectors viewed
    as rows. -/
theorem stage_v70 (x0 : (⟨S160000x1, .f32⟩ : BufTy).Contents (Elt Ideal)) (x1 : (⟨S5120000, .f32⟩ : BufTy).Contents (Elt Ideal)) (x2 : (⟨S16x1, .f32⟩ : BufTy).Contents (Elt Ideal)) (x3 : (⟨S16, .f32⟩ : BufTy).Contents (Elt Ideal)) (x4 : (⟨S16x1, .f32⟩ : BufTy).Contents (Elt Ideal)) (x5 : (⟨S1x16, .f32⟩ : BufTy).Contents (Elt Ideal)) (x6 : (⟨S1, .f32⟩ : BufTy).Contents (Elt Ideal)) (x7 : (⟨S1x16, .f32⟩ : BufTy).Contents (Elt Ideal)) (x8 : (⟨S4000x20000, .f32⟩ : BufTy).Contents (Elt Ideal)) (x9 : (⟨S4000, .f32⟩ : BufTy).Contents (Elt Ideal)) (x10 : (⟨S800x4000, .f32⟩ : BufTy).Contents (Elt Ideal)) (x11 : (⟨S800, .f32⟩ : BufTy).Contents (Elt Ideal)) (x12 : (⟨S160x800, .f32⟩ : BufTy).Contents (Elt Ideal)) (x13 : (⟨S160, .f32⟩ : BufTy).Contents (Elt Ideal)) (x14 : (⟨S10x160, .f32⟩ : BufTy).Contents (Elt Ideal)) (x15 : (⟨S10, .f32⟩ : BufTy).Contents (Elt Ideal)) (x16 : (⟨S2x5120000, .i32⟩ : BufTy).Contents (Elt Ideal)) :
    val_main_v70 (F := Ideal) x0 x1 x2 x3 x4 x5 x6 x7 x8 x9 x10 x11 x12 x13 x14 x15 x16
      = Cert.KernelIdeal.Head.head (val_main_v52 (F := Ideal) x0 x1 x2 x3 x4 x5 x6 x7 x8 x9 x16) x10 (shapeCast Cert.KernelIdeal.S1x800 x11 Cert.KernelIdeal.Gen.shapeCasts_S800_S1x800)
          x12 (shapeCast Cert.KernelIdeal.S1x160 x13 Cert.KernelIdeal.Gen.shapeCasts_S160_S1x160)
          x14 (shapeCast Cert.KernelIdeal.S1x10 x15 Cert.KernelIdeal.Gen.shapeCasts_S10_S1x10) := by
  unfold Cert.KernelIdeal.Head.head
  simp only [val_main_v70, val_main_call4_v10, val_main_call4_v9, val_main_call4_v8, val_main_call4_v7, val_main_call4_cst_1,
    val_main_call4_v6, val_main_call4_v5, val_main_call4_v4, val_main_call4_v3, val_main_call4_v2, val_main_call4_v1,
    val_main_call4_cst_0, val_main_call4_v0, val_main_call4_cst, val_main_v69, val_main_v68, val_main_v67, val_main_v66,
    val_main_v65, val_main_v64, val_main_call3_v0, val_main_call3_cst, val_main_v63, val_main_v62, val_main_v61, val_main_v60,
    val_main_v59, val_main_v58, val_main_call2_v0, val_main_call2_cst, val_main_v57, val_main_v56, val_main_v55, val_main_v54,
    val_main_v53]
  rw [show dot_S8x4000_S4000x800_S8x800_1_0_0_1_n_n = plainDims 8 4000 800 dot_S8x4000_S4000x800_S8x800_1_0_0_1_n_n.wf from rfl,
    show dot_S8x800_S800x160_S8x160_1_0_0_1_n_n = plainDims 8 800 160 dot_S8x800_S800x160_S8x160_1_0_0_1_n_n.wf from rfl,
    show dot_S8x160_S160x10_S8x10_1_0_0_1_n_n = plainDims 8 160 10 dot_S8x160_S160x10_S8x10_1_0_0_1_n_n.wf from rfl]
  rw (config := { transparency := .default })
    [Cert.Layers.hostReluLayer_eq _ _ _ _ _ _ _ Cert.KernelIdeal.Gen.shapeCasts_S800_S1x800 _,
    Cert.Layers.hostReluLayer_eq _ _ _ _ _ _ _ Cert.KernelIdeal.Gen.shapeCasts_S160_S1x160 _,
    Cert.Layers.hostLayer_eq _ _ _ _ _ _ _ Cert.KernelIdeal.Gen.shapeCasts_S10_S1x10]
  exact Cert.LibLogSoftmax.host_eq _ _ (by decide) _ _ _ _

end Cert.RefStages

end
-- ==== Proof.Boundaries.lean ====
/-
  The idealized kernel's boundary arrays as the reference's stages.

  Following the run from the launch memory: the first stretch of host operations gathers the source nodes'
  features, scales them by the edge weights and adds them into the target nodes — the first aggregate —; the first
  launch's result array is then the reference's value after its first rectifier. The second stretch does the same
  with those features; the second launch's result is the reference's value before its reshape. The third stretch
  reshapes it to one row per graph and transposes; the third launch's result, transposed back by the fourth stretch,
  is the reference's first rectified perceptron layer. The last launch's result is the reference's result. An
  argument array, and an index array computed by the first stretch, is the same at every later boundary: no later
  operation or launch writes it.
-/
import proofs.«105413_j59897613910372_2_alg».proof.Proof.Gen.KernelIdeal.Frame
import proofs.«105413_j59897613910372_2_alg».proof.Proof.RefConv1
import proofs.«105413_j59897613910372_2_alg».proof.Proof.RefConv2
import proofs.«105413_j59897613910372_2_alg».proof.Proof.RefMlp1
import proofs.«105413_j59897613910372_2_alg».proof.Proof.RefHead
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Argument arrays at the boundaries -/

theorem arg1_at1 (c : Dev nD) : W1 m ρ c (Proc.devRef .tc main_arg1) = m ((c : Thread nD τ).loc main_arg1) := by
  show StableHlo.after hostOps0 (W0 m ρ c) (Proc.devRef .tc main_arg1) = _
  after_results <;> rfl
theorem arg1_at2 (c : Dev nD) : W2 m ρ c (Proc.devRef .tc main_arg1) = m ((c : Thread nD τ).loc main_arg1) :=
  (W2_of_ne m ρ c main_arg1 (by decide)).trans (arg1_at1 m ρ c)
theorem arg5_at1 (c : Dev nD) : W1 m ρ c (Proc.devRef .tc main_arg5) = m ((c : Thread nD τ).loc main_arg5) := by
  show StableHlo.after hostOps0 (W0 m ρ c) (Proc.devRef .tc main_arg5) = _
  after_results <;> rfl
theorem arg5_at2 (c : Dev nD) : W2 m ρ c (Proc.devRef .tc main_arg5) = m ((c : Thread nD τ).loc main_arg5) :=
  (W2_of_ne m ρ c main_arg5 (by decide)).trans (arg5_at1 m ρ c)
theorem arg5_at3 (c : Dev nD) : W3 m ρ c (Proc.devRef .tc main_arg5) = m ((c : Thread nD τ).loc main_arg5) := by
  show StableHlo.after hostOps1 (W2 m ρ c) (Proc.devRef .tc main_arg5) = _
  after_results
  exact arg5_at2 m ρ c
theorem arg6_at1 (c : Dev nD) : W1 m ρ c (Proc.devRef .tc main_arg6) = m ((c : Thread nD τ).loc main_arg6) := by
  show StableHlo.after hostOps0 (W0 m ρ c) (Proc.devRef .tc main_arg6) = _
  after_results <;> rfl
theorem arg6_at2 (c : Dev nD) : W2 m ρ c (Proc.devRef .tc main_arg6) = m ((c : Thread nD τ).loc main_arg6) :=
  (W2_of_ne m ρ c main_arg6 (by decide)).trans (arg6_at1 m ρ c)
theorem arg6_at3 (c : Dev nD) : W3 m ρ c (Proc.devRef .tc main_arg6) = m ((c : Thread nD τ).loc main_arg6) := by
  show StableHlo.after hostOps1 (W2 m ρ c) (Proc.devRef .tc main_arg6) = _
  after_results
  exact arg6_at2 m ρ c
theorem arg7_at1 (c : Dev nD) : W1 m ρ c (Proc.devRef .tc main_arg7) = m ((c : Thread nD τ).loc main_arg7) := by
  show StableHlo.after hostOps0 (W0 m ρ c) (Proc.devRef .tc main_arg7) = _
  after_results <;> rfl
theorem arg7_at2 (c : Dev nD) : W2 m ρ c (Proc.devRef .tc main_arg7) = m ((c : Thread nD τ).loc main_arg7) :=
  (W2_of_ne m ρ c main_arg7 (by decide)).trans (arg7_at1 m ρ c)
theorem arg7_at3 (c : Dev nD) : W3 m ρ c (Proc.devRef .tc main_arg7) = m ((c : Thread nD τ).loc main_arg7) := by
  show StableHlo.after hostOps1 (W2 m ρ c) (Proc.devRef .tc main_arg7) = _
  after_results
  exact arg7_at2 m ρ c
theorem arg8_at1 (c : Dev nD) : W1 m ρ c (Proc.devRef .tc main_arg8) = m ((c : Thread nD τ).loc main_arg8) := by
  show StableHlo.after hostOps0 (W0 m ρ c) (Proc.devRef .tc main_arg8) = _
  after_results <;> rfl
theorem arg8_at2 (c : Dev nD) : W2 m ρ c (Proc.devRef .tc main_arg8) = m ((c : Thread nD τ).loc main_arg8) :=
  (W2_of_ne m ρ c main_arg8 (by decide)).trans (arg8_at1 m ρ c)
theorem arg8_at3 (c : Dev nD) : W3 m ρ c (Proc.devRef .tc main_arg8) = m ((c : Thread nD τ).loc main_arg8) := by
  show StableHlo.after hostOps1 (W2 m ρ c) (Proc.devRef .tc main_arg8) = _
  after_results
  exact arg8_at2 m ρ c
theorem arg8_at4 (c : Dev nD) : W4 m ρ c (Proc.devRef .tc main_arg8) = m ((c : Thread nD τ).loc main_arg8) :=
  (W4_of_ne m ρ c main_arg8 (by decide)).trans (arg8_at3 m ρ c)
theorem arg8_at5 (c : Dev nD) : W5 m ρ c (Proc.devRef .tc main_arg8) = m ((c : Thread nD τ).loc main_arg8) := by
  show StableHlo.after hostOps2 (W4 m ρ c) (Proc.devRef .tc main_arg8) = _
  after_results
  exact arg8_at4 m ρ c
theorem arg9_at1 (c : Dev nD) : W1 m ρ c (Proc.devRef .tc main_arg9) = m ((c : Thread nD τ).loc main_arg9) := by
  show StableHlo.after hostOps0 (W0 m ρ c) (Proc.devRef .tc main_arg9) = _
  after_results <;> rfl
theorem arg9_at2 (c : Dev nD) : W2 m ρ c (Proc.devRef .tc main_arg9) = m ((c : Thread nD τ).loc main_arg9) :=
  (W2_of_ne m ρ c main_arg9 (by decide)).trans (arg9_at1 m ρ c)
theorem arg9_at3 (c : Dev nD) : W3 m ρ c (Proc.devRef .tc main_arg9) = m ((c : Thread nD τ).loc main_arg9) := by
  show StableHlo.after hostOps1 (W2 m ρ c) (Proc.devRef .tc main_arg9) = _
  after_results
  exact arg9_at2 m ρ c
theorem arg9_at4 (c : Dev nD) : W4 m ρ c (Proc.devRef .tc main_arg9) = m ((c : Thread nD τ).loc main_arg9) :=
  (W4_of_ne m ρ c main_arg9 (by decide)).trans (arg9_at3 m ρ c)
theorem arg9_at5 (c : Dev nD) : W5 m ρ c (Proc.devRef .tc main_arg9) = m ((c : Thread nD τ).loc main_arg9) := by
  show StableHlo.after hostOps2 (W4 m ρ c) (Proc.devRef .tc main_arg9) = _
  after_results
  exact arg9_at4 m ρ c
theorem arg10_at1 (c : Dev nD) : W1 m ρ c (Proc.devRef .tc main_arg10) = m ((c : Thread nD τ).loc main_arg10) := by
  show StableHlo.after hostOps0 (W0 m ρ c) (Proc.devRef .tc main_arg10) = _
  after_results <;> rfl
theorem arg10_at2 (c : Dev nD) : W2 m ρ c (Proc.devRef .tc main_arg10) = m ((c : Thread nD τ).loc main_arg10) :=
  (W2_of_ne m ρ c main_arg10 (by decide)).trans (arg10_at1 m ρ c)
theorem arg10_at3 (c : Dev nD) : W3 m ρ c (Proc.devRef .tc main_arg10) = m ((c : Thread nD τ).loc main_arg10) := by
  show StableHlo.after hostOps1 (W2 m ρ c) (Proc.devRef .tc main_arg10) = _
  after_results
  exact arg10_at2 m ρ c
theorem arg10_at4 (c : Dev nD) : W4 m ρ c (Proc.devRef .tc main_arg10) = m ((c : Thread nD τ).loc main_arg10) :=
  (W4_of_ne m ρ c main_arg10 (by decide)).trans (arg10_at3 m ρ c)
theorem arg10_at5 (c : Dev nD) : W5 m ρ c (Proc.devRef .tc main_arg10) = m ((c : Thread nD τ).loc main_arg10) := by
  show StableHlo.after hostOps2 (W4 m ρ c) (Proc.devRef .tc main_arg10) = _
  after_results
  exact arg10_at4 m ρ c
theorem arg10_at6 (c : Dev nD) : W6 m ρ c (Proc.devRef .tc main_arg10) = m ((c : Thread nD τ).loc main_arg10) :=
  (W6_of_ne m ρ c main_arg10 (by decide)).trans (arg10_at5 m ρ c)
theorem arg10_at7 (c : Dev nD) : W7 m ρ c (Proc.devRef .tc main_arg10) = m ((c : Thread nD τ).loc main_arg10) := by
  show StableHlo.after hostOps3 (W6 m ρ c) (Proc.devRef .tc main_arg10) = _
  after_results
  exact arg10_at6 m ρ c
theorem arg11_at1 (c : Dev nD) : W1 m ρ c (Proc.devRef .tc main_arg11) = m ((c : Thread nD τ).loc main_arg11) := by
  show StableHlo.after hostOps0 (W0 m ρ c) (Proc.devRef .tc main_arg11) = _
  after_results <;> rfl
theorem arg11_at2 (c : Dev nD) : W2 m ρ c (Proc.devRef .tc main_arg11) = m ((c : Thread nD τ).loc main_arg11) :=
  (W2_of_ne m ρ c main_arg11 (by decide)).trans (arg11_at1 m ρ c)
theorem arg11_at3 (c : Dev nD) : W3 m ρ c (Proc.devRef .tc main_arg11) = m ((c : Thread nD τ).loc main_arg11) := by
  show StableHlo.after hostOps1 (W2 m ρ c) (Proc.devRef .tc main_arg11) = _
  after_results
  exact arg11_at2 m ρ c
theorem arg11_at4 (c : Dev nD) : W4 m ρ c (Proc.devRef .tc main_arg11) = m ((c : Thread nD τ).loc main_arg11) :=
  (W4_of_ne m ρ c main_arg11 (by decide)).trans (arg11_at3 m ρ c)
theorem arg11_at5 (c : Dev nD) : W5 m ρ c (Proc.devRef .tc main_arg11) = m ((c : Thread nD τ).loc main_arg11) := by
  show StableHlo.after hostOps2 (W4 m ρ c) (Proc.devRef .tc main_arg11) = _
  after_results
  exact arg11_at4 m ρ c
theorem arg11_at6 (c : Dev nD) : W6 m ρ c (Proc.devRef .tc main_arg11) = m ((c : Thread nD τ).loc main_arg11) :=
  (W6_of_ne m ρ c main_arg11 (by decide)).trans (arg11_at5 m ρ c)
theorem arg11_at7 (c : Dev nD) : W7 m ρ c (Proc.devRef .tc main_arg11) = m ((c : Thread nD τ).loc main_arg11) := by
  show StableHlo.after hostOps3 (W6 m ρ c) (Proc.devRef .tc main_arg11) = _
  after_results
  exact arg11_at6 m ρ c
theorem arg12_at1 (c : Dev nD) : W1 m ρ c (Proc.devRef .tc main_arg12) = m ((c : Thread nD τ).loc main_arg12) := by
  show StableHlo.after hostOps0 (W0 m ρ c) (Proc.devRef .tc main_arg12) = _
  after_results <;> rfl
theorem arg12_at2 (c : Dev nD) : W2 m ρ c (Proc.devRef .tc main_arg12) = m ((c : Thread nD τ).loc main_arg12) :=
  (W2_of_ne m ρ c main_arg12 (by decide)).trans (arg12_at1 m ρ c)
theorem arg12_at3 (c : Dev nD) : W3 m ρ c (Proc.devRef .tc main_arg12) = m ((c : Thread nD τ).loc main_arg12) := by
  show StableHlo.after hostOps1 (W2 m ρ c) (Proc.devRef .tc main_arg12) = _
  after_results
  exact arg12_at2 m ρ c
theorem arg12_at4 (c : Dev nD) : W4 m ρ c (Proc.devRef .tc main_arg12) = m ((c : Thread nD τ).loc main_arg12) :=
  (W4_of_ne m ρ c main_arg12 (by decide)).trans (arg12_at3 m ρ c)
theorem arg12_at5 (c : Dev nD) : W5 m ρ c (Proc.devRef .tc main_arg12) = m ((c : Thread nD τ).loc main_arg12) := by
  show StableHlo.after hostOps2 (W4 m ρ c) (Proc.devRef .tc main_arg12) = _
  after_results
  exact arg12_at4 m ρ c
theorem arg12_at6 (c : Dev nD) : W6 m ρ c (Proc.devRef .tc main_arg12) = m ((c : Thread nD τ).loc main_arg12) :=
  (W6_of_ne m ρ c main_arg12 (by decide)).trans (arg12_at5 m ρ c)
theorem arg12_at7 (c : Dev nD) : W7 m ρ c (Proc.devRef .tc main_arg12) = m ((c : Thread nD τ).loc main_arg12) := by
  show StableHlo.after hostOps3 (W6 m ρ c) (Proc.devRef .tc main_arg12) = _
  after_results
  exact arg12_at6 m ρ c
theorem arg13_at1 (c : Dev nD) : W1 m ρ c (Proc.devRef .tc main_arg13) = m ((c : Thread nD τ).loc main_arg13) := by
  show StableHlo.after hostOps0 (W0 m ρ c) (Proc.devRef .tc main_arg13) = _
  after_results <;> rfl
theorem arg13_at2 (c : Dev nD) : W2 m ρ c (Proc.devRef .tc main_arg13) = m ((c : Thread nD τ).loc main_arg13) :=
  (W2_of_ne m ρ c main_arg13 (by decide)).trans (arg13_at1 m ρ c)
theorem arg13_at3 (c : Dev nD) : W3 m ρ c (Proc.devRef .tc main_arg13) = m ((c : Thread nD τ).loc main_arg13) := by
  show StableHlo.after hostOps1 (W2 m ρ c) (Proc.devRef .tc main_arg13) = _
  after_results
  exact arg13_at2 m ρ c
theorem arg13_at4 (c : Dev nD) : W4 m ρ c (Proc.devRef .tc main_arg13) = m ((c : Thread nD τ).loc main_arg13) :=
  (W4_of_ne m ρ c main_arg13 (by decide)).trans (arg13_at3 m ρ c)
theorem arg13_at5 (c : Dev nD) : W5 m ρ c (Proc.devRef .tc main_arg13) = m ((c : Thread nD τ).loc main_arg13) := by
  show StableHlo.after hostOps2 (W4 m ρ c) (Proc.devRef .tc main_arg13) = _
  after_results
  exact arg13_at4 m ρ c
theorem arg13_at6 (c : Dev nD) : W6 m ρ c (Proc.devRef .tc main_arg13) = m ((c : Thread nD τ).loc main_arg13) :=
  (W6_of_ne m ρ c main_arg13 (by decide)).trans (arg13_at5 m ρ c)
theorem arg13_at7 (c : Dev nD) : W7 m ρ c (Proc.devRef .tc main_arg13) = m ((c : Thread nD τ).loc main_arg13) := by
  show StableHlo.after hostOps3 (W6 m ρ c) (Proc.devRef .tc main_arg13) = _
  after_results
  exact arg13_at6 m ρ c
theorem arg14_at1 (c : Dev nD) : W1 m ρ c (Proc.devRef .tc main_arg14) = m ((c : Thread nD τ).loc main_arg14) := by
  show StableHlo.after hostOps0 (W0 m ρ c) (Proc.devRef .tc main_arg14) = _
  after_results <;> rfl
theorem arg14_at2 (c : Dev nD) : W2 m ρ c (Proc.devRef .tc main_arg14) = m ((c : Thread nD τ).loc main_arg14) :=
  (W2_of_ne m ρ c main_arg14 (by decide)).trans (arg14_at1 m ρ c)
theorem arg14_at3 (c : Dev nD) : W3 m ρ c (Proc.devRef .tc main_arg14) = m ((c : Thread nD τ).loc main_arg14) := by
  show StableHlo.after hostOps1 (W2 m ρ c) (Proc.devRef .tc main_arg14) = _
  after_results
  exact arg14_at2 m ρ c
theorem arg14_at4 (c : Dev nD) : W4 m ρ c (Proc.devRef .tc main_arg14) = m ((c : Thread nD τ).loc main_arg14) :=
  (W4_of_ne m ρ c main_arg14 (by decide)).trans (arg14_at3 m ρ c)
theorem arg14_at5 (c : Dev nD) : W5 m ρ c (Proc.devRef .tc main_arg14) = m ((c : Thread nD τ).loc main_arg14) := by
  show StableHlo.after hostOps2 (W4 m ρ c) (Proc.devRef .tc main_arg14) = _
  after_results
  exact arg14_at4 m ρ c
theorem arg14_at6 (c : Dev nD) : W6 m ρ c (Proc.devRef .tc main_arg14) = m ((c : Thread nD τ).loc main_arg14) :=
  (W6_of_ne m ρ c main_arg14 (by decide)).trans (arg14_at5 m ρ c)
theorem arg14_at7 (c : Dev nD) : W7 m ρ c (Proc.devRef .tc main_arg14) = m ((c : Thread nD τ).loc main_arg14) := by
  show StableHlo.after hostOps3 (W6 m ρ c) (Proc.devRef .tc main_arg14) = _
  after_results
  exact arg14_at6 m ρ c
theorem arg15_at1 (c : Dev nD) : W1 m ρ c (Proc.devRef .tc main_arg15) = m ((c : Thread nD τ).loc main_arg15) := by
  show StableHlo.after hostOps0 (W0 m ρ c) (Proc.devRef .tc main_arg15) = _
  after_results <;> rfl
theorem arg15_at2 (c : Dev nD) : W2 m ρ c (Proc.devRef .tc main_arg15) = m ((c : Thread nD τ).loc main_arg15) :=
  (W2_of_ne m ρ c main_arg15 (by decide)).trans (arg15_at1 m ρ c)
theorem arg15_at3 (c : Dev nD) : W3 m ρ c (Proc.devRef .tc main_arg15) = m ((c : Thread nD τ).loc main_arg15) := by
  show StableHlo.after hostOps1 (W2 m ρ c) (Proc.devRef .tc main_arg15) = _
  after_results
  exact arg15_at2 m ρ c
theorem arg15_at4 (c : Dev nD) : W4 m ρ c (Proc.devRef .tc main_arg15) = m ((c : Thread nD τ).loc main_arg15) :=
  (W4_of_ne m ρ c main_arg15 (by decide)).trans (arg15_at3 m ρ c)
theorem arg15_at5 (c : Dev nD) : W5 m ρ c (Proc.devRef .tc main_arg15) = m ((c : Thread nD τ).loc main_arg15) := by
  show StableHlo.after hostOps2 (W4 m ρ c) (Proc.devRef .tc main_arg15) = _
  after_results
  exact arg15_at4 m ρ c
theorem arg15_at6 (c : Dev nD) : W6 m ρ c (Proc.devRef .tc main_arg15) = m ((c : Thread nD τ).loc main_arg15) :=
  (W6_of_ne m ρ c main_arg15 (by decide)).trans (arg15_at5 m ρ c)
theorem arg15_at7 (c : Dev nD) : W7 m ρ c (Proc.devRef .tc main_arg15) = m ((c : Thread nD τ).loc main_arg15) := by
  show StableHlo.after hostOps3 (W6 m ρ c) (Proc.devRef .tc main_arg15) = _
  after_results
  exact arg15_at6 m ρ c

/-! ## The first stretch and the first launch -/

set_option maxHeartbeats 4000000 in
theorem agg1_at1 (c : Dev nD) :
    W1 m ρ c (Proc.devRef .tc main_v15) = Cert.ReferenceIdeal.Read.val_main_v15 (F := Ideal) (m ((c : Thread nD τ).loc main_arg0)) (m ((c : Thread nD τ).loc main_arg1)) (m ((c : Thread nD τ).loc main_arg16)) := by
  show StableHlo.after hostOps0 (W0 m ρ c) (Proc.devRef .tc main_v15) = _
  after_results_simp <;> rfl

theorem arg0_at1 (c : Dev nD) : W1 m ρ c (Proc.devRef .tc main_arg0) = m ((c : Thread nD τ).loc main_arg0) := by
  show StableHlo.after hostOps0 (W0 m ρ c) (Proc.devRef .tc main_arg0) = _
  after_results <;> rfl
theorem arg2_at1 (c : Dev nD) : W1 m ρ c (Proc.devRef .tc main_arg2) = m ((c : Thread nD τ).loc main_arg2) := by
  show StableHlo.after hostOps0 (W0 m ρ c) (Proc.devRef .tc main_arg2) = _
  after_results <;> rfl
theorem arg4_at1 (c : Dev nD) : W1 m ρ c (Proc.devRef .tc main_arg4) = m ((c : Thread nD τ).loc main_arg4) := by
  show StableHlo.after hostOps0 (W0 m ρ c) (Proc.devRef .tc main_arg4) = _
  after_results <;> rfl
theorem bias1_at1 (c : Dev nD) : W1 m ρ c (Proc.devRef .tc main_v16)
    = shapeCast S1x16 (m ((c : Thread nD τ).loc main_arg3)) shapeCasts_S16_S1x16 := by
  show StableHlo.after hostOps0 (W0 m ρ c) (Proc.devRef .tc main_v16) = _
  after_results <;> rfl

/-- The source and target index arrays, computed once by the first stretch. -/
theorem src_at1 (c : Dev nD) : W1 m ρ c (Proc.devRef .tc main_v1) = Cert.ReferenceIdeal.Read.val_main_v1 (F := Ideal) (m ((c : Thread nD τ).loc main_arg16)) := by
  show StableHlo.after hostOps0 (W0 m ρ c) (Proc.devRef .tc main_v1) = _
  after_results <;> rfl
theorem tgt_at1 (c : Dev nD) : W1 m ρ c (Proc.devRef .tc main_v3) = Cert.ReferenceIdeal.Read.val_main_v3 (F := Ideal) (m ((c : Thread nD τ).loc main_arg16)) := by
  show StableHlo.after hostOps0 (W0 m ρ c) (Proc.devRef .tc main_v3) = _
  after_results <;> rfl
theorem src_at2 (c : Dev nD) : W2 m ρ c (Proc.devRef .tc main_v1) = Cert.ReferenceIdeal.Read.val_main_v1 (F := Ideal) (m ((c : Thread nD τ).loc main_arg16)) :=
  (W2_of_ne m ρ c main_v1 (by decide)).trans (src_at1 m ρ c)
theorem tgt_at2 (c : Dev nD) : W2 m ρ c (Proc.devRef .tc main_v3) = Cert.ReferenceIdeal.Read.val_main_v3 (F := Ideal) (m ((c : Thread nD τ).loc main_arg16)) :=
  (W2_of_ne m ρ c main_v3 (by decide)).trans (tgt_at1 m ρ c)

/-- The first launch's result array is the reference's value after its first rectifier. -/
theorem hidden1_at2 (c : Dev nD) :
    W2 m ρ c (Proc.devRef .tc main_v17) = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg16)) := by
  refine (W2_arr m ρ c 5).trans ?_
  rw [Cert.KernelIdeal.Conv1.final (V1 m ρ) c]
  show Cert.KernelIdeal.Conv1.conv1 (W1 m ρ c (Proc.devRef .tc main_v15)) (W1 m ρ c (Proc.devRef .tc main_arg0))
      (W1 m ρ c (Proc.devRef .tc main_arg2)) (W1 m ρ c (Proc.devRef .tc main_arg4)) (W1 m ρ c (Proc.devRef .tc main_v16)) = _
  rw [agg1_at1, arg0_at1, arg2_at1, arg4_at1, bias1_at1]
  exact (Cert.RefStages.stage_v24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg16))).symm

/-! ## The second stretch and the second launch -/

set_option maxHeartbeats 4000000 in
theorem agg2_at3 (c : Dev nD) :
    W3 m ρ c (Proc.devRef .tc main_v30) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg16)) := by
  show StableHlo.after hostOps1 (W2 m ρ c) (Proc.devRef .tc main_v30) = _
  after_results_simp
  rw [hidden1_at2, src_at2, tgt_at2, arg1_at2]
  rfl
theorem hidden1_at3 (c : Dev nD) :
    W3 m ρ c (Proc.devRef .tc main_v17) = Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg16)) := by
  show StableHlo.after hostOps1 (W2 m ρ c) (Proc.devRef .tc main_v17) = _
  after_results
  exact hidden1_at2 m ρ c
theorem bias2_at3 (c : Dev nD) : W3 m ρ c (Proc.devRef .tc main_v31)
    = shapeCast S1x1 (m ((c : Thread nD τ).loc main_arg6)) shapeCasts_S1_S1x1 := by
  show StableHlo.after hostOps1 (W2 m ρ c) (Proc.devRef .tc main_v31) = _
  after_results
  rw [arg6_at2]
  rfl

/-- The second launch's result array is the reference's value before its reshape. -/
theorem hidden2_at4 (c : Dev nD) :
    W4 m ρ c (Proc.devRef .tc main_v32) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) := by
  refine (W4_arr m ρ c 5).trans ?_
  rw [Cert.KernelIdeal.Conv2.final (V3 m ρ) c]
  show Cert.KernelIdeal.Conv2.conv2 (W3 m ρ c (Proc.devRef .tc main_v30)) (W3 m ρ c (Proc.devRef .tc main_v17))
      (W3 m ρ c (Proc.devRef .tc main_arg5)) (W3 m ρ c (Proc.devRef .tc main_arg7)) (W3 m ρ c (Proc.devRef .tc main_v31)) = _
  rw [agg2_at3, hidden1_at3, arg5_at3, arg7_at3, bias2_at3]
  exact (Cert.RefStages.stage_v45 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16))).symm

/-! ## The third stretch and the third launch -/

theorem graphsT_at5 (c : Dev nD) : W5 m ρ c (Proc.devRef .tc main_v34)
    = transpose S20000x8 [1, 0] (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16))) transposes_S8x20000_S20000x8_1_0 := by
  show StableHlo.after hostOps2 (W4 m ρ c) (Proc.devRef .tc main_v34) = _
  after_results
  rw [hidden2_at4]
  rfl
theorem bias3_at5 (c : Dev nD) : W5 m ρ c (Proc.devRef .tc main_v35)
    = shapeCast S4000x1 (m ((c : Thread nD τ).loc main_arg9)) shapeCasts_S4000_S4000x1 := by
  show StableHlo.after hostOps2 (W4 m ρ c) (Proc.devRef .tc main_v35) = _
  after_results
  rw [arg9_at4]
  rfl

/-- The third launch's result array: the first perceptron layer, output-major. -/
theorem layer1T_at6 (c : Dev nD) : W6 m ρ c (Proc.devRef .tc main_v36)
    = Cert.KernelIdeal.Mlp1.mlp1T (m ((c : Thread nD τ).loc main_arg8))
        (transpose S20000x8 [1, 0] (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16))) transposes_S8x20000_S20000x8_1_0)
        (shapeCast S4000x1 (m ((c : Thread nD τ).loc main_arg9)) shapeCasts_S4000_S4000x1) := by
  refine (W6_arr m ρ c 3).trans ?_
  rw [Cert.KernelIdeal.Mlp1.final (V5 m ρ) c]
  show Cert.KernelIdeal.Mlp1.mlp1T (W5 m ρ c (Proc.devRef .tc main_arg8)) (W5 m ρ c (Proc.devRef .tc main_v34))
      (W5 m ρ c (Proc.devRef .tc main_v35)) = _
  rw [arg8_at5, graphsT_at5, bias3_at5]

/-! ## The fourth stretch and the last launch -/

theorem layer1_at7 (c : Dev nD) :
    W7 m ρ c (Proc.devRef .tc main_v37) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16)) := by
  show StableHlo.after hostOps3 (W6 m ρ c) (Proc.devRef .tc main_v37) = _
  after_results
  rw [layer1T_at6]
  exact Cert.RefStages.stage_v52 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg16))
theorem bias4_at7 (c : Dev nD) : W7 m ρ c (Proc.devRef .tc main_v38)
    = shapeCast S1x800 (m ((c : Thread nD τ).loc main_arg11)) shapeCasts_S800_S1x800 := by
  show StableHlo.after hostOps3 (W6 m ρ c) (Proc.devRef .tc main_v38) = _
  after_results
  rw [arg11_at6]
  rfl
theorem bias5_at7 (c : Dev nD) : W7 m ρ c (Proc.devRef .tc main_v39)
    = shapeCast S1x160 (m ((c : Thread nD τ).loc main_arg13)) shapeCasts_S160_S1x160 := by
  show StableHlo.after hostOps3 (W6 m ρ c) (Proc.devRef .tc main_v39) = _
  after_results
  rw [arg13_at6]
  rfl
theorem bias6_at7 (c : Dev nD) : W7 m ρ c (Proc.devRef .tc main_v40)
    = shapeCast S1x10 (m ((c : Thread nD τ).loc main_arg15)) shapeCasts_S10_S1x10 := by
  show StableHlo.after hostOps3 (W6 m ρ c) (Proc.devRef .tc main_v40) = _
  after_results
  rw [arg15_at6]
  rfl

/-- THE RESULT BUFFER at the last boundary is the reference's result, as a function of the argument arrays. -/
theorem result_eq (c : Dev nD) :
    W8 m ρ c (Proc.devRef .tc main_v41) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 7).trans ?_
  rw [Cert.KernelIdeal.Head.final (V7 m ρ) c]
  show Cert.KernelIdeal.Head.head (W7 m ρ c (Proc.devRef .tc main_v37)) (W7 m ρ c (Proc.devRef .tc main_arg10))
      (W7 m ρ c (Proc.devRef .tc main_v38)) (W7 m ρ c (Proc.devRef .tc main_arg12)) (W7 m ρ c (Proc.devRef .tc main_v39))
      (W7 m ρ c (Proc.devRef .tc main_arg14)) (W7 m ρ c (Proc.devRef .tc main_v40)) = _
  rw [layer1_at7, arg10_at7, bias4_at7, arg12_at7, bias5_at7, arg14_at7, bias6_at7]
  exact (Cert.RefStages.stage_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).symm

end Cert.KernelIdeal.Boundaries

end
-- ==== Proof.lean ====
/-
  The certificate: the kernel — four launches (two graph-convolution combines, a perceptron layer, and the last
  layers with the logarithm of a soft maximum) among host operations that gather, scale and add edge messages — and
  its plain reference compute the same function over the extended reals.

  The three frames are the generated ones (the reference's is its generated run with the result dropped). The ideal
  pass rewrote nothing, so the kernel's idealization is its own text read at the ideal values. For the equality of
  results: the idealized kernel's run ends with its result buffer at the last of nine boundary arrays
  (`KernelRun`), and that array is the reference's result as a function of the argument arrays (`Boundaries`: each
  launch's result array is one stage of the reference, the host operations between launches being the reference's
  own); the reference's generated run ends at the same function of arguments that agree.
-/
import proofs.«105413_j59897613910372_2_alg».proof.Defs
import proofs.«105413_j59897613910372_2_alg».proof.Proof.Gen.Kernel
import proofs.«105413_j59897613910372_2_alg».proof.Proof.Gen.Kernel.Skeleton
import proofs.«105413_j59897613910372_2_alg».proof.Proof.Gen.Kernel.Launch
import proofs.«105413_j59897613910372_2_alg».proof.Proof.Gen.Kernel.Points
import proofs.«105413_j59897613910372_2_alg».proof.Proof.Gen.Kernel.Frame
import proofs.«105413_j59897613910372_2_alg».proof.Proof.Gen.KernelIdeal
import proofs.«105413_j59897613910372_2_alg».proof.Proof.Gen.KernelIdeal.Skeleton
import proofs.«105413_j59897613910372_2_alg».proof.Proof.Gen.KernelIdeal.Launch
import proofs.«105413_j59897613910372_2_alg».proof.Proof.Gen.KernelIdeal.Points
import proofs.«105413_j59897613910372_2_alg».proof.Proof.Gen.KernelIdeal.Frame
import proofs.«105413_j59897613910372_2_alg».proof.Proof.Gen.ReferenceIdeal
import proofs.«105413_j59897613910372_2_alg».proof.Proof.Gen.Pre_finite_inputs
import proofs.«105413_j59897613910372_2_alg».proof.Proof.Gen.ReferenceIdeal.Run
import proofs.«105413_j59897613910372_2_alg».proof.Proof.Gen.ReferenceIdeal.Read
import proofs.«105413_j59897613910372_2_alg».proof.Proof.KernelRun
import proofs.«105413_j59897613910372_2_alg».proof.Proof.Boundaries
import Idealize.ShloMosaic.Adequacy
import Idealize.ShloMosaic.Init

noncomputable section

namespace Cert.Proof

open Idealize.ShloMosaic Idealize.SL.Sem

/-- The two idealized programs, from memories agreeing on the arguments, end with equal results: the reference's
    result function of the kernel's argument arrays. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Boundaries.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v70_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
